-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v78)) (v3 : (c : Dev Cert.KernelIdeal.nD) → Buf (Elt Ideal) ((c.tc : Thread Cert.KernelIdeal.nD Cert.KernelIdeal.τ).loc Cert.KernelIdeal.main_v89)) (v4 : (c : Dev Cert.KernelIdeal.nD) → Buf (Elt Ideal) ((c.tc : Thread Cert.KernelIdeal.nD Cert.KernelIdeal.τ).loc Cert.KernelIdeal.main_v92_0)) (v5 : (c : Dev Cert.KernelIdeal.nD) → Buf (Elt Ideal) ((c.tc : Thread Cert.KernelIdeal.nD Cert.KernelIdeal.τ).loc Cert.KernelIdeal.main_v92_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_v89) = v3 c
          ∧ r.2.mem ((c.tc : Thread Cert.KernelIdeal.nD Cert.KernelIdeal.τ).loc Cert.KernelIdeal.main_v92_0) = v4 c
          ∧ r.2.mem ((c.tc : Thread Cert.KernelIdeal.nD Cert.KernelIdeal.τ).loc Cert.KernelIdeal.main_v92_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_v155) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10x64 .f32) (main_arg10 : FVec F S10 .f32) (main_v33 : IVec S_ 1) : IVec S_ 1 :=
  let main_v34 : FVec F S10x64 .f32 := Host.absf main_arg9
  let main_cst_12 : FVec F S_ .f32 := constant S_ .f32 0x7F800000#32
  let main_v35 : FVec F S10x64 .f32 := broadcastInDim S10x64 ![] bcast_S_S10x64 main_cst_12
  let main_v36 : IVec S10x64 1 := cmpf .olt main_v34 main_v35
  let main_c_13 : IVec S_ 1 := constantI S_ 1 1#1
  let main_v37 : IVec S_ 1 := (fun x v => Host.reduce IntOp.andi x v reducesTo_S10x64_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S10x64 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S10x64 .f32) (main_arg10 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S1000 : Shape := ⟨1, ![1000]⟩
abbrev S1000x64 : Shape := ⟨2, ![1000, 64]⟩
abbrev S1000x1 : Shape := ⟨2, ![1000, 1]⟩
abbrev S64x10 : Shape := ⟨2, ![64, 10]⟩
abbrev S1x10 : Shape := ⟨2, ![1, 10]⟩
abbrev S1000x10 : Shape := ⟨2, ![1000, 10]⟩

abbrev nBuf : Space → Nat
  | .hbm => 127
  | .vmem => 47
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10x64, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S64x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x1, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S64x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S64x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x1, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S1000, .f32⟩
  | .hbm, ⟨110, _⟩ => ⟨S100000x1, .i32⟩
  | .hbm, ⟨111, _⟩ => ⟨S1000, .f32⟩
  | .hbm, ⟨112, _⟩ => ⟨S_, .f32⟩
  | .hbm, ⟨113, _⟩ => ⟨S1000x64, .f32⟩
  | .hbm, ⟨114, _⟩ => ⟨S100000x1, .i32⟩
  | .hbm, ⟨115, _⟩ => ⟨S1000x64, .f32⟩
  | .hbm, ⟨116, _⟩ => ⟨S_, .f32⟩
  | .hbm, ⟨117, _⟩ => ⟨S_, .f32⟩
  | .hbm, ⟨118, _⟩ => ⟨S1000, .f32⟩
  | .hbm, ⟨119, _⟩ => ⟨S1000, .f32⟩
  | .hbm, ⟨120, _⟩ => ⟨S1000x1, .f32⟩
  | .hbm, ⟨121, _⟩ => ⟨S1000x64, .f32⟩
  | .hbm, ⟨122, _⟩ => ⟨S1000x64, .f32⟩
  | .hbm, ⟨123, _⟩ => ⟨S64x10, .f32⟩
  | .hbm, ⟨124, _⟩ => ⟨S1x10, .f32⟩
  | .hbm, ⟨125, _⟩ => ⟨S1000x10, .f32⟩
  | .hbm, ⟨126, _⟩ => ⟨S1000x10, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1000x64, .f32⟩
  | .local _ .vmem, ⟨43, _⟩ => ⟨S64x10, .f32⟩
  | .local _ .vmem, ⟨44, _⟩ => ⟨S1x10, .f32⟩
  | .local _ .vmem, ⟨45, _⟩ => ⟨S1000x10, .f32⟩
  | .local _ .vmem, ⟨46, _⟩ => ⟨S1000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_call0_v0 : Ref sig .tc := ⟨.hbm, 117, rfl⟩
abbrev main_call0_v1 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92_0 : Ref sig .tc := ⟨.hbm, 125, rfl⟩
abbrev main_v92_1 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1000x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1000x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  bcast_S_S1000 : S_.BroadcastsInDim S1000 (![] : Fin 0 → Fin S1000.rank)
  bcast_S100000_S100000x1_0 : S100000.BroadcastsInDim S100000x1 (![0] : Fin 1 → Fin S100000x1.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  transposes_S10x64_S64x10_1_0 : S10x64.Transposes [1, 0] S64x10
  shapeCasts_S10_S1x10 : S10.ShapeCasts S1x10
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  reduces_S1000x10_S1000 : S1000x10.Reduces [1] S1000
  shapeCasts_S1000_S1000x1 : S1000.ShapeCasts S1000x1
  broadcasts_S1000x1_S1000x10 : S1000x1.Broadcasts S1000x10
  inb_S1000x10_S1000x10_0_0 : ∀ a, (![0, 0] : Fin 2 → Nat) a + S1000x10.size a ≤ S1000x10.size a
  h_S1000x10 : 0 < S1000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000_S100000x1_S100000_n_0_0_1_wf : ScatterDims.WF S1000 S100000x1 S100000 [] [0] [0] 1
  scatter_S1000x64_S100000x1_S100000x64_1_0_0_1_wf : ScatterDims.WF S1000x64 S100000x1 S100000x64 [1] [0] [0] 1
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S1000x64.size a
  hwx6_0 : ∀ i : grid6.Coords, EltTy.bits .f32 = 32 ∨ (Rect.block (s := S1000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x10.size a ≤ S64x10.size a
  hwx6_1 : ∀ i : grid6.Coords, EltTy.bits .f32 = 32 ∨ (Rect.block (s := S64x10) S64x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1000x10.size a ≤ S1000x10.size a
  hwx6_3 : ∀ i : grid6.Coords, EltTy.bits .f32 = 32 ∨ (Rect.block (s := S1000x10) S1000x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1000x10.size a ≤ S1000x10.size a
  hwx6_4 : ∀ i : grid6.Coords, EltTy.bits .f32 = 32 ∨ (Rect.block (s := S1000x10) S1000x10.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v89) S1000x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v90) S64x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v92_0) S1000x10.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92_1) S1000x10.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1000 : Shape := ⟨1, ![1000]⟩
abbrev S1000x64 : Shape := ⟨2, ![1000, 64]⟩
abbrev S1000x1 : Shape := ⟨2, ![1000, 1]⟩
abbrev S64x10 : Shape := ⟨2, ![64, 10]⟩
abbrev S1000x10 : Shape := ⟨2, ![1000, 10]⟩
abbrev S1x10 : Shape := ⟨2, ![1, 10]⟩

abbrev nBuf : Space → Nat
  | .hbm => 208
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S10x64, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S64x64, .f32⟩
  | 26 => ⟨S100000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S64x64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x1, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S64x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x1, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000, .f32⟩
  | 31 => ⟨S100000x1, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S_, .f32⟩
  | 42 => ⟨S100000, .f32⟩
  | 43 => ⟨S_, .f32⟩
  | 44 => ⟨S1000, .f32⟩
  | 45 => ⟨S100000x1, .i32⟩
  | 46 => ⟨S1000, .f32⟩
  | 47 => ⟨S_, .f32⟩
  | 48 => ⟨S1000x64, .f32⟩
  | 49 => ⟨S100000x1, .i32⟩
  | 50 => ⟨S1000x64, .f32⟩
  | 51 => ⟨S_, .f32⟩
  | 52 => ⟨S_, .f32⟩
  | 53 => ⟨S1000, .f32⟩
  | 54 => ⟨S1000, .f32⟩
  | 55 => ⟨S1000x1, .f32⟩
  | 56 => ⟨S1000x64, .f32⟩
  | 57 => ⟨S1000x64, .f32⟩
  | 58 => ⟨S64x10, .f32⟩
  | 59 => ⟨S1000x10, .f32⟩
  | 60 => ⟨S1x10, .f32⟩
  | 61 => ⟨S1000x10, .f32⟩
  | 62 => ⟨S1000x10, .f32⟩
  | 63 => ⟨S_, .f32⟩
  | 64 => ⟨S1000x10, .f32⟩
  | 65 => ⟨S1000x10, .f32⟩
  | 66 => ⟨S_, .f32⟩
  | 67 => ⟨S1000, .f32⟩
  | 68 => ⟨S_, .f32⟩
  | 69 => ⟨S1000, .f32⟩
  | 70 => ⟨S1000, .f32⟩
  | 71 => ⟨S1000x1, .f32⟩
  | 72 => ⟨S1000x10, .f32⟩
  | 73 => ⟨S1000x10, .f32⟩
  | 74 => ⟨S1000x10, .f32⟩
  | 75 => ⟨S_, .f32⟩
  | 76 => ⟨S1000, .f32⟩
  | 77 => ⟨S1000x1, .f32⟩
  | 78 => ⟨S1000x10, .f32⟩
  | 79 => ⟨S1000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call1_cst : Ref sig .tc := ⟨.hbm, 118, rfl⟩
abbrev main_call1_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_15 : Ref sig .tc := ⟨.hbm, 123, rfl⟩
abbrev main_v91 : Ref sig .tc := ⟨.hbm, 124, rfl⟩
abbrev main_v92 : Ref sig .tc := ⟨.hbm, 125, rfl⟩
abbrev main_c_16 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_17 : Ref sig .tc := ⟨.hbm, 132, rfl⟩
abbrev main_v98 : Ref sig .tc := ⟨.hbm, 133, rfl⟩
abbrev main_v99 : Ref sig .tc := ⟨.hbm, 134, rfl⟩
abbrev main_c_18 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_19 : Ref sig .tc := ⟨.hbm, 142, rfl⟩
abbrev main_v106 : Ref sig .tc := ⟨.hbm, 143, rfl⟩
abbrev main_v107 : Ref sig .tc := ⟨.hbm, 144, rfl⟩
abbrev main_c_20 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_21 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_call2_cst : Ref sig .tc := ⟨.hbm, 166, rfl⟩
abbrev main_call2_v0 : Ref sig .tc := ⟨.hbm, 167, rfl⟩
abbrev main_v127 : Ref sig .tc := ⟨.hbm, 168, rfl⟩
abbrev main_cst_22 : Ref sig .tc := ⟨.hbm, 169, rfl⟩
abbrev main_v128 : Ref sig .tc := ⟨.hbm, 170, rfl⟩
abbrev main_cst_23 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_24 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_25 : Ref sig .tc := ⟨.hbm, 179, rfl⟩
abbrev main_call3_v0 : Ref sig .tc := ⟨.hbm, 180, rfl⟩
abbrev main_call3_v1 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_call4_cst : Ref sig .tc := ⟨.hbm, 191, rfl⟩
abbrev main_call4_v0 : Ref sig .tc := ⟨.hbm, 192, rfl⟩
abbrev main_v144 : Ref sig .tc := ⟨.hbm, 193, rfl⟩
abbrev main_cst_26 : Ref sig .tc := ⟨.hbm, 194, rfl⟩
abbrev main_v145 : Ref sig .tc := ⟨.hbm, 195, rfl⟩
abbrev main_cst_27 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_28 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S64x64_S64x64_1_0 : S64x64.Transposes [1, 0] S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000 : S_.BroadcastsInDim S1000 (![] : Fin 0 → Fin S1000.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  transposes_S10x64_S64x10_1_0 : S10x64.Transposes [1, 0] S64x10
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  bcast_S_S1000x10 : S_.BroadcastsInDim S1000x10 (![] : Fin 0 → Fin S1000x10.rank)
  reducesTo_S1000x10_S1000_d1 : S1000x10.ReducesTo [1] S1000
  h_S_ : 0 < S_.numel
  bcast_S1000x1_S1000x10_0_1 : S1000x1.BroadcastsInDim S1000x10 (![0, 1] : Fin 2 → Fin S1000x10.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000_S100000x1_S100000_n_0_0_1_wf : ScatterDims.WF S1000 S100000x1 S100000 [] [0] [0] 1
  scatter_S1000x64_S100000x1_S100000x64_1_0_0_1_wf : ScatterDims.WF S1000x64 S100000x1 S100000x64 [1] [0] [0] 1
  dot_S1000x64_S64x10_S1000x10_1_0_0_1_n_n_wf : DotDims.WF S1000x64 S64x10 S1000x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

class Facts : Prop extends Facts₀ where

variable [Facts]
-- ==== Proof.HostForms.lean ====
/-
  The host's spelling of the three dense stages of the graph network, as functions of whole arrays on the extended
  reals. Each is written with the very operations the reference program applies, so that a reference stage unfolds to
  one of them, and each pallas_call's result array is shown (elsewhere) to be one of them.

    * product h wT          : the matrix product  h · wT                               ([N,64] x [64,64])
    * combine a xw d b      : max (a + xw * d[:, None] + b[None, :], 0)               (one layer's self-loop, bias, rectifier)
    * head p wT b           : max (p · wT + b[None, :], 0)                             ([1000,64] x [64,10])
    * softmaxRows f         : exp (f - rowmax f) / rowsum (exp (f - rowmax f)), the row maximum taken from -inf
-/
import proofs.«179573_j79680233276324_2_alg».proof.Proof.Gen.ReferenceIdeal
import Idealize.ShloMosaic.PureOps.Ideal

noncomputable section

namespace Cert.HostForms

open Cert.ReferenceIdeal Cert.ReferenceIdeal.Gen Idealize.ShloMosaic

/-- The whole-array product of the node features with a transposed weight matrix. -/
def product (h : FVec Ideal S100000x64 .f32) (wT : FVec Ideal S64x64 .f32) : FVec Ideal S100000x64 .f32 :=
  Host.dotGeneral (F := Ideal) dot_S100000x64_S64x64_S100000x64_1_0_0_1_n_n none h wT

/-- One layer's closing stage: aggregated messages plus the self-loop term (the product scaled row by row by the
    column `d`) plus the bias row, rectified. -/
def combine (a xw : FVec Ideal S100000x64 .f32) (d : FVec Ideal S100000x1 .f32) (b : FVec Ideal S1x64 .f32) :
    FVec Ideal S100000x64 .f32 :=
  maximumf
    (addf (addf a (mulf xw (broadcastInDim S100000x64 ![0, 1] bcast_S100000x1_S100000x64_0_1 d)))
      (broadcastInDim S100000x64 ![0, 1] bcast_S1x64_S100000x64_0_1 b))
    (broadcastInDim S100000x64 ![] bcast_S_S100000x64 (constant (F := Ideal) S_ .f32 0x00000000#32))

/-- The classifier's linear layer on the pooled features, rectified. -/
def head (p : FVec Ideal S1000x64 .f32) (wT : FVec Ideal S64x10 .f32) (b : FVec Ideal S1x10 .f32) :
    FVec Ideal S1000x10 .f32 :=
  maximumf
    (addf (Host.dotGeneral (F := Ideal) dot_S1000x64_S64x10_S1000x10_1_0_0_1_n_n none p wT)
      (broadcastInDim S1000x10 ![0, 1] bcast_S1x10_S1000x10_0_1 b))
    (broadcastInDim S1000x10 ![] bcast_S_S1000x10 (constant (F := Ideal) S_ .f32 0x00000000#32))

/-- The row maximum, taken from -inf and joined once more with -inf, laid out as a column and stretched. -/
def rowMaxSpread (f : FVec Ideal S1000x10 .f32) : FVec Ideal S1000x10 .f32 :=
  broadcastInDim S1000x10 ![0, 1] bcast_S1000x1_S1000x10_0_1
    (broadcastInDim S1000x1 ![0] bcast_S1000_S1000x1_0
      (maximumf (broadcastInDim S1000 ![] bcast_S_S1000 (constant (F := Ideal) S_ .f32 0xFF800000#32))
        (Host.reduce FloatOps.maximumf f (constant (F := Ideal) S_ .f32 0xFF800000#32) reducesTo_S1000x10_S1000_d1 h_S_)))

/-- The exponentials of the entries less their row's maximum. -/
def shiftedExp (f : FVec Ideal S1000x10 .f32) : FVec Ideal S1000x10 .f32 :=
  Host.exp (subf f (rowMaxSpread f))

/-- The softmax along each row. -/
def softmaxRows (f : FVec Ideal S1000x10 .f32) : FVec Ideal S1000x10 .f32 :=
  Host.divf (shiftedExp f)
    (broadcastInDim S1000x10 ![0, 1] bcast_S1000x1_S1000x10_0_1
      (broadcastInDim S1000x1 ![0] bcast_S1000_S1000x1_0
        (Host.reduceAdd (shiftedExp f) (constant (F := Ideal) S_ .f32 0x00000000#32) reducesTo_S1000x10_S1000_d1 h_S_)))

end Cert.HostForms

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«179573_j79680233276324_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibBlockDot.lean ====
/-
  A dense product computed row block by row block is the whole product.

  For a plain [R, K] × [K, C] product into a zero accumulator (contract the left operand's axis 1 with the right
  operand's axis 0, no batch axes) whose left operand is a block of rows of an [N, K] array, the entry (p, q) of the
  block's product is the entry (P, q) of the host's product of the whole [N, K] array with the same [K, C] array,
  when row p of the block is row P of the array: both are the sum over k of (row P)(k) · right(k, q) on the
  extended reals, and the sum is over the same K terms whatever the number of rows.
-/
import proofs.«179573_j79680233276324_2_alg».proof.Proof.LibMatmulAt
import proofs.«179573_j79680233276324_2_alg».proof.Proof.LibHostDot

noncomputable section

open scoped BigOperators

namespace Cert.LibBlockDot

open Idealize.ShloMosaic Idealize.ShloMosaic.ValueIdx Cert.LibPlainDot

/-- Entry (p, q) of a row block's product into the zero accumulator is entry (P, q) of the host's whole product,
    when the block's row p is the array's row P and the right operands agree in column q. The element formats of the
    four operands are free: on the extended reals a change of format is the identity. -/
theorem matmul_block_apply {R K C N : ℕ} (Dk : DotDims ⟨2, ![R, K]⟩ ⟨2, ![K, C]⟩ ⟨2, ![R, C]⟩)
    (hlc : Dk.lhsContracting = [1]) (hrc : Dk.rhsContracting = [0]) (hln : Dk.lhsNonContracting = [0])
    (hrn : Dk.rhsNonContracting = [1]) (hlb : Dk.lhsBatch = []) (hrb : Dk.rhsBatch = [])
    (wf : DotDims.WF ⟨2, ![N, K]⟩ ⟨2, ![K, C]⟩ ⟨2, ![N, C]⟩ [1] [0] [0] [1] [] [])
    {φ₁ φ₂ ψ₁ ψ₂ : FTy} (prec prec' : Option ContractPrecision)
    (x0 : FVec Ideal ⟨2, ![R, K]⟩ φ₁) (x1 : FVec Ideal ⟨2, ![K, C]⟩ φ₂)
    (X : FVec Ideal ⟨2, ![N, K]⟩ ψ₁) (W : FVec Ideal ⟨2, ![K, C]⟩ ψ₂)
    (p : Fin R) (P : Fin N) (q : Fin C)
    (h0 : ∀ k : Fin K, (x0 (ix2 p k) : EReal) = X (ix2 P k))
    (h1 : ∀ k : Fin K, (x1 (ix2 k q) : EReal) = W (ix2 k q)) :
    matmul Dk prec x0 x1 (constant (F := Ideal) ⟨2, ![R, C]⟩ .f32 0x00000000#32) (ix2 p q)
      = Host.dotGeneral (F := Ideal) (plainDot N K C wf) prec' X W (ix2 P q) := by
  rw [Cert.LibMatmulAt.matmul_zero_apply Dk hlc hrc hln hrn hlb hrb, Cert.LibHostDot.hostDot_apply wf]
  exact Finset.sum_congr rfl fun k _ => by rw [h0 k, h1 k]

end Cert.LibBlockDot

end
-- ==== Proof.RegionProduct.lean ====
/-
  The three dense products of the network, each computed row block by row block, are the whole products.

  Each of the three product stages runs over a grid of 20 points. At point t the body takes rows
  5000 t .. 5000 t + 4999 of the [100000, 64] feature array and the whole [64, 64] transposed weight matrix,
  multiplies them into a zero accumulator, and stores the [5000, 64] result, which is written back as rows
  5000 t .. 5000 t + 4999 of the [100000, 64] result array. On the extended reals a change of format is the
  identity, so entry (p, q) of the block's product is the sum over k of h (5000 t + p, k) * wT (k, q), which is
  entry (5000 t + p, q) of the host's product of the whole arrays. The 20 row blocks tile the result array
  (row r lies in block r / 5000), so the array ends holding the whole product.
-/
import proofs.«179573_j79680233276324_2_alg».proof.Proof.Gen.KernelIdeal.Frame
import proofs.«179573_j79680233276324_2_alg».proof.Proof.HostForms
import proofs.«179573_j79680233276324_2_alg».proof.Proof.LibBlockDot
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offset of a whole-buffer access. -/
theorem origin2 : (![0, 0] : Fin 2 → Nat) = fun _ => 0 := funext fun a => by fin_cases a <;> rfl

/-! ## One block's product, entry by entry -/

/-- Entry (p, q) of the first stage's body on a row block `x0` and weights `x1` is entry (P, q) of the host's whole
    product of `X` and `W`, when row p of the block is row P of `X` and column q of the weights is column q of `W`. -/
theorem blockProduct_apply (x0 : Vec Ideal S5000x64 .f32) (x1 : Vec Ideal S64x64 .f32)
    (X : FVec Ideal S100000x64 .f32) (W : FVec Ideal S64x64 .f32)
    (p : Fin 5000) (P : Fin 100000) (q : Fin 64)
    (h0 : ∀ k : Fin 64, x0 (ix2 p k) = X (ix2 P k))
    (h1 : ∀ k : Fin 64, x1 (ix2 k q) = W (ix2 k q)) :
    k0_pay1 x0 x1 (ix2 p q) = Cert.HostForms.product X W (ix2 P q) := by
  unfold k0_pay1
  show matmul dot_S5000x64_S64x64_S5000x64_1_0_0_1_n_n none (truncf .bf16 x0 _)
      (truncf .bf16 (shapeCast S64x64 x1 _) _) (constant (F := Ideal) S5000x64 .f32 0x00000000#32) (ix2 p q) = _
  rw [shapeCast_self]
  unfold Cert.HostForms.product
  exact Cert.LibBlockDot.matmul_block_apply (R := 5000) (K := 64) (C := 64) (N := 100000)
    dot_S5000x64_S64x64_S5000x64_1_0_0_1_n_n rfl rfl rfl rfl rfl rfl
    Cert.ReferenceIdeal.Facts₀.dot_S100000x64_S64x64_S100000x64_1_0_0_1_n_n_wf none none
    (truncf .bf16 x0 _) (truncf .bf16 x1 _) X W p P q h0 h1

/-- The later stages' body is the first stage's: it only casts the row block to its own shape first. -/
theorem pay2_eq (x0 : Vec Ideal S5000x64 .f32) (x1 : Vec Ideal S64x64 .f32) : k2_pay1 x0 x1 = k0_pay1 x0 x1 := by
  unfold k2_pay1 k0_pay1
  simp only [shapeCast_self]

theorem pay4_eq (x0 : Vec Ideal S5000x64 .f32) (x1 : Vec Ideal S64x64 .f32) : k4_pay1 x0 x1 = k0_pay1 x0 x1 := by
  unfold k4_pay1 k0_pay1
  simp only [shapeCast_self]

/-! ## The first product stage -/

/-- The index maps, decided over the grid: at point t the feature window and the result window are at row block t,
    the weight window is the whole matrix. -/
theorem blockIndex0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is row block t of the host's whole product of the arrays the stage finds. -/
theorem flushed0_eq (c : Dev nD) (t : Fin cfg0.N) :
    (dat0 (F := Ideal) V c).flushed 2 t
      = ((cfg0.win 2).blk t).view.read (Elt Ideal) (Cert.HostForms.product (V c main_arg0) (V c main_v28)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  obtain ⟨e0, e1, e2, e3, e4, e5⟩ := blockIndex0 t
  have ht : t.val < 20 := Nat.lt_of_lt_of_eq t.isLt N_0
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Cert.HostForms.product (V c main_arg0) (V c main_v28) (((cfg0.win 2).blk t).view.emb (ix2 p q))
  have hout : ((cfg0.win 2).blk t).view.emb (ix2 p q) = ix2 (⟨5000 * t.val + p.val, by omega⟩ : Fin 100000) q := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  rw [hout]
  refine blockProduct_apply _ _ _ _ p _ q (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = 5000 * t.val + p.val; omega
    | ⟨1, _⟩ => show win0_0.index t (1 : Fin 2) * 64 + 1 * k.val = k.val; omega
  · show V c main_v28 (((cfg0.win 1).blk t).view.emb (ix2 k q)) = _
    refine congrArg (V c main_v28) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the result array is in point t's block iff each coordinate is in the block's range on its axis. -/
theorem mem_outBlock0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v29).slice (win0_2.rect t)).set ↔ _
  rw [View.set_slice_whole, Rect.mem_set_unit]
  exact Iff.rfl

/-- The 20 row blocks tile the result array: row r is in the block of point r / 5000. -/
theorem outBlocks_cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := by
    show (i 0).val / 5000 < grid0.N
    rw [N_0]; omega
  refine ⟨⟨(i 0).val / 5000, hN⟩, flush0_2 _, ?_⟩
  rw [mem_outBlock0]
  obtain ⟨-, -, -, -, e4, e5⟩ := blockIndex0 ⟨(i 0).val / 5000, hN⟩
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 64 ≤ (i 1).val ∧ (i 1).val < win0_2.index _ (1 : Fin 2) * 64 + 64
    rw [e5]; omega

/-- The first product stage leaves the host's whole product in its result array. -/
theorem product0 (c : Dev nD) :
    (dat0 (F := Ideal) V c).arrAt 2 cfg0.N = Cert.HostForms.product (V c main_arg0) (V c main_v28) :=
  (dat0 (F := Ideal) V c).arrAt_eq_of_cover 2 (Cert.HostForms.product (V c main_arg0) (V c main_v28))
    (fun t _ => flushed0_eq V c t) outBlocks_cover0

/-! ## The second product stage -/

/-- The index maps, decided over the grid: at point t the feature window and the result window are at row block t,
    the weight window is the whole matrix. -/
theorem blockIndex2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is row block t of the host's whole product of the arrays the stage finds. -/
theorem flushed2_eq (c : Dev nD) (t : Fin cfg2.N) :
    (dat2 (F := Ideal) V c).flushed 2 t
      = ((cfg2.win 2).blk t).view.read (Elt Ideal) (Cert.HostForms.product (V c main_v44) (V c main_v45)) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S64x64) origin2]
  rw [pay2_eq]
  obtain ⟨e0, e1, e2, e3, e4, e5⟩ := blockIndex2 t
  have ht : t.val < 20 := Nat.lt_of_lt_of_eq t.isLt N_2
  funext j
  obtain ⟨p, q, rfl⟩ : ∃ (p : Fin 5000) (q : Fin 64), j = ix2 p q := ⟨j 0, j 1, eq_ix2 j⟩
  show k0_pay1 (iblk2 V c 0 t) (iblk2 V c 1 t) (ix2 p q)
    = Cert.HostForms.product (V c main_v44) (V c main_v45) (((cfg2.win 2).blk t).view.emb (ix2 p q))
  have hout : ((cfg2.win 2).blk t).view.emb (ix2 p q) = ix2 (⟨5000 * t.val + p.val, by omega⟩ : Fin 100000) q := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  rw [hout]
  refine blockProduct_apply _ _ _ _ p _ q (fun k => ?_) (fun k => ?_)
  · show V c main_v44 (((cfg2.win 0).blk t).view.emb (ix2 p k)) = _
    refine congrArg (V c main_v44) ?_
    funext a; apply Fin.ext
    match a with
    | ⟨0, _⟩ => show win2_0.index t (0 : Fin 2) * 5000 + 1 * p.val = 5000 * t.val + p.val; omega
    | ⟨1, _⟩ => show win2_0.index t (1 : Fin 2) * 64 + 1 * k.val = k.val; omega
  · show V c main_v45 (((cfg2.win 1).blk t).view.emb (ix2 k q)) = _
    refine congrArg (V c main_v45) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega

/-- An index of the result array is in point t's block iff each coordinate is in the block's range on its axis. -/
theorem mem_outBlock2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- The 20 row blocks tile the result array: row r is in the block of point r / 5000. -/
theorem outBlocks_cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by
    show (i 0).val / 5000 < grid2.N
    rw [N_2]; omega
  refine ⟨⟨(i 0).val / 5000, hN⟩, flush2_2 _, ?_⟩
  rw [mem_outBlock2]
  obtain ⟨-, -, -, -, e4, e5⟩ := blockIndex2 ⟨(i 0).val / 5000, hN⟩
  intro a
  match a with
  | ⟨0, _⟩ =>
    show win2_2.index _ (0 : Fin 2) * 5000 ≤ (i 0).val ∧ (i 0).val < win2_2.index _ (0 : Fin 2) * 5000 + 5000
    rw [e4]
    show (i 0).val / 5000 * 5000 ≤ (i 0).val ∧ (i 0).val < (i 0).val / 5000 * 5000 + 5000
    omega
  | ⟨1, _⟩ =>
    show win2_2.index _ (1 : Fin 2) * 64 ≤ (i 1).val ∧ (i 1).val < win2_2.index _ (1 : Fin 2) * 64 + 64
    rw [e5]; omega

/-- The second product stage leaves the host's whole product in its result array. -/
theorem product2 (c : Dev nD) :
    (dat2 (F := Ideal) V c).arrAt 2 cfg2.N = Cert.HostForms.product (V c main_v44) (V c main_v45) :=
  (dat2 (F := Ideal) V c).arrAt_eq_of_cover 2 (Cert.HostForms.product (V c main_v44) (V c main_v45))
    (fun t _ => flushed2_eq V c t) outBlocks_cover2

/-! ## The third product stage -/

/-- The index maps, decided over the grid: at point t the feature window and the result window are at row block t,
    the weight window is the whole matrix. -/
theorem blockIndex4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is row block t of the host's whole product of the arrays the stage finds. -/
theorem flushed4_eq (c : Dev nD) (t : Fin cfg4.N) :
    (dat4 (F := Ideal) V c).flushed 2 t
      = ((cfg4.win 2).blk t).view.read (Elt Ideal) (Cert.HostForms.product (V c main_v61) (V c main_v62)) := by
  show (cfg4.win 2).cut (grid4.coords t) ((dat4 V c).after 2 t) = _
  rw [after4_2]
  unfold out4_2
  rw [View.canon_unit_zero origin2]
  simp only [View.ld_unit_zero (S := S5000x64) origin2, View.ld_unit_zero (S := S64x64) origin2]
  rw [pay4_eq]
  obtain ⟨e0, e1, e2, e3, e4, e5⟩ := blockIndex4 t
  have ht : t.val < 20 := Nat.lt_of_lt_of_eq t.isLt N_4
  funext j
  obtain ⟨p, q, rfl⟩ : ∃ (p : Fin 5000) (q : Fin 64), j = ix2 p q := ⟨j 0, j 1, eq_ix2 j⟩
  show k0_pay1 (iblk4 V c 0 t) (iblk4 V c 1 t) (ix2 p q)
    = Cert.HostForms.product (V c main_v61) (V c main_v62) (((cfg4.win 2).blk t).view.emb (ix2 p q))
  have hout : ((cfg4.win 2).blk t).view.emb (ix2 p q) = ix2 (⟨5000 * t.val + p.val, by omega⟩ : Fin 100000) q := by
    funext a; apply Fin.ext
    match a with
    | ⟨0, _⟩ => show win4_2.index t (0 : Fin 2) * 5000 + 1 * p.val = 5000 * t.val + p.val; omega
    | ⟨1, _⟩ => show win4_2.index t (1 : Fin 2) * 64 + 1 * q.val = q.val; omega
  rw [hout]
  refine blockProduct_apply _ _ _ _ p _ q (fun k => ?_) (fun k => ?_)
  · show V c main_v61 (((cfg4.win 0).blk t).view.emb (ix2 p k)) = _
    refine congrArg (V c main_v61) ?_
    funext a; apply Fin.ext
    match a with
    | ⟨0, _⟩ => show win4_0.index t (0 : Fin 2) * 5000 + 1 * p.val = 5000 * t.val + p.val; omega
    | ⟨1, _⟩ => show win4_0.index t (1 : Fin 2) * 64 + 1 * k.val = k.val; omega
  · show V c main_v62 (((cfg4.win 1).blk t).view.emb (ix2 k q)) = _
    refine congrArg (V c main_v62) ?_
    funext a; apply Fin.ext
    match a with
    | ⟨0, _⟩ => show win4_1.index t (0 : Fin 2) * 64 + 1 * k.val = k.val; omega
    | ⟨1, _⟩ => show win4_1.index t (1 : Fin 2) * 64 + 1 * q.val = q.val; omega

/-- An index of the result array is in point t's block iff each coordinate is in the block's range on its axis. -/
theorem mem_outBlock4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v63).slice (win4_2.rect t)).set ↔ _
  rw [View.set_slice_whole, Rect.mem_set_unit]
  exact Iff.rfl

/-- The 20 row blocks tile the result array: row r is in the block of point r / 5000. -/
theorem outBlocks_cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 5000 < cfg4.N := by
    show (i 0).val / 5000 < grid4.N
    rw [N_4]; omega
  refine ⟨⟨(i 0).val / 5000, hN⟩, flush4_2 _, ?_⟩
  rw [mem_outBlock4]
  obtain ⟨-, -, -, -, e4, e5⟩ := blockIndex4 ⟨(i 0).val / 5000, hN⟩
  intro a
  match a with
  | ⟨0, _⟩ =>
    show win4_2.index _ (0 : Fin 2) * 5000 ≤ (i 0).val ∧ (i 0).val < win4_2.index _ (0 : Fin 2) * 5000 + 5000
    rw [e4]
    show (i 0).val / 5000 * 5000 ≤ (i 0).val ∧ (i 0).val < (i 0).val / 5000 * 5000 + 5000
    omega
  | ⟨1, _⟩ =>
    show win4_2.index _ (1 : Fin 2) * 64 ≤ (i 1).val ∧ (i 1).val < win4_2.index _ (1 : Fin 2) * 64 + 64
    rw [e5]; omega

/-- The third product stage leaves the host's whole product in its result array. -/
theorem product4 (c : Dev nD) :
    (dat4 (F := Ideal) V c).arrAt 2 cfg4.N = Cert.HostForms.product (V c main_v61) (V c main_v62) :=
  (dat4 (F := Ideal) V c).arrAt_eq_of_cover 2 (Cert.HostForms.product (V c main_v61) (V c main_v62))
    (fun t _ => flushed4_eq V c t) outBlocks_cover4

end Cert.KernelIdeal.RegionValue

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.RegionCombine.lean ====
/-
  The three closing stages of the graph network's layers, each computed block by block over twenty blocks of 5000 rows:
  the result array of each is the whole-array stage  max (agg + xw * d[:, None] + b[None, :], 0)  of the arrays the
  stage finds.

  Both sides are entrywise.  At the entry (r, q) the block body reads the aggregate and the product at (r, q), the
  scaling column at (r, 0) and the bias row at (0, q); the whole-array form reads the same four entries through its
  two stretches.  Row p of the block at point t is row 5000 t + p of every row-blocked array, the bias row is whole at
  every point, and the twenty output blocks fill the array (row r lies in the block of point r / 5000).
-/
import proofs.«179573_j79680233276324_2_alg».proof.Proof.Gen.KernelIdeal.Frame
import proofs.«179573_j79680233276324_2_alg».proof.Proof.HostForms
import proofs.«179573_j79680233276324_2_alg».proof.Proof.LibColumn
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## One entry of the stage, on either side -/

/-- The block body at the entry (p, q): the aggregate plus the product scaled by the row's factor plus the column's
    bias, held at or above the zero word (read as it stands, never evaluated). -/
theorem body1_point (d : Vec Ideal S5000x1 .f32) (b : Vec Ideal S1x64 .f32) (a xw : Vec Ideal S5000x64 .f32)
    (p : Fin 5000) (q : Fin 64) :
    k1_pay1 d b a xw (ix2 p q)
      = max (a (ix2 p q) + xw (ix2 p q) * d (ix2 p (0 : Fin 1)) + b (ix2 (0 : Fin 1) q))
          (Scalar.ofBits (F := Ideal) .f32 0x00000000#32) := by
  unfold k1_pay1
  simp only [shapeCast_self]
  show max (a (ix2 p q) + xw (ix2 p q) * broadcastTo S5000x64 d broadcasts_S5000x1_S5000x64 (ix2 p q)
      + broadcastTo S5000x64 b broadcasts_S1x64_S5000x64 (ix2 p q)) _ = _
  rw [Cert.LibColumn.broadcastTo_a1_ab_apply, broadcastTo_1b_ab_apply]
  rfl

/-- The second and third layers' bodies are the same operations. -/
theorem body3_point (d : Vec Ideal S5000x1 .f32) (b : Vec Ideal S1x64 .f32) (a xw : Vec Ideal S5000x64 .f32)
    (p : Fin 5000) (q : Fin 64) :
    k3_pay1 d b a xw (ix2 p q)
      = max (a (ix2 p q) + xw (ix2 p q) * d (ix2 p (0 : Fin 1)) + b (ix2 (0 : Fin 1) q))
          (Scalar.ofBits (F := Ideal) .f32 0x00000000#32) :=
  body1_point d b a xw p q

theorem body5_point (d : Vec Ideal S5000x1 .f32) (b : Vec Ideal S1x64 .f32) (a xw : Vec Ideal S5000x64 .f32)
    (p : Fin 5000) (q : Fin 64) :
    k5_pay1 d b a xw (ix2 p q)
      = max (a (ix2 p q) + xw (ix2 p q) * d (ix2 p (0 : Fin 1)) + b (ix2 (0 : Fin 1) q))
          (Scalar.ofBits (F := Ideal) .f32 0x00000000#32) :=
  body1_point d b a xw p q

/-- The whole-array stage at the entry (r, q): the column stretched along its unit axis reads its entry (r, 0), the
    row stretched over the rows its entry (0, q), the stretched scalar its one word. -/
theorem combine_point (A XW : FVec Ideal S100000x64 .f32) (D : FVec Ideal S100000x1 .f32) (B : FVec Ideal S1x64 .f32)
    (r : Fin 100000) (q : Fin 64) :
    Cert.HostForms.combine A XW D B (ix2 r q)
      = max (A (ix2 r q) + XW (ix2 r q) * D (ix2 r (0 : Fin 1)) + B (ix2 (0 : Fin 1) q))
          (Scalar.ofBits (F := Ideal) .f32 0x00000000#32) := by
  unfold Cert.HostForms.combine
  rw [maximumf_apply, addf_apply, addf_apply, mulf_apply]
  rw [Cert.LibColumn.bcastInDim_a1_ab_apply, Cert.LibColumn.bcastInDim_1b_ab_apply,
    Cert.LibColumn.bcastInDim_scalar_apply _ _ _ ix0]
  rfl

/-! ## Blocks of 5000 rows -/

theorem zeros2 : (![0, 0] : Fin 2 → Nat) = fun _ => 0 := funext fun a => by fin_cases a <;> rfl

/-- Row p of the n-th block of 5000 rows is row 5000 n + p of the whole array. -/
def blockRow (n : Nat) (hn : n < 20) (p : Fin 5000) : Fin 100000 :=
  ⟨n * 5000 + p.val, by have := p.isLt; omega⟩
/-! ## The first layer's stage -/

theorem lt20_1 (t : Fin cfg1.N) : t.val < 20 := lt_of_lt_of_eq t.isLt N_1

/-- The index maps over the grid: the row-blocked windows sit at block (t, 0) at point t, the bias row at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block of rows is some point's. -/
theorem idx_onto1 : ∀ n : Fin 20, ∃ t : Fin cfg1.N, win1_4.index t = ![n.val, 0] :=
  (by decide +kernel : ∀ n : Fin 20, ∃ t : Fin grid1.N, win1_4.index t = ![n.val, 0])

/-- Where the entries of the blocks at point t sit in their arrays. -/
theorem emb1_0 (t : Fin cfg1.N) (p : Fin 5000) (q : Fin 64) :
    (((cfg1.win 0).blk t).view.emb (ix2 p q) : S100000x64.Idx) = ix2 (blockRow t.val (lt20_1 t) p) q := by
  obtain ⟨e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

theorem emb1_1 (t : Fin cfg1.N) (p : Fin 5000) (q : Fin 64) :
    (((cfg1.win 1).blk t).view.emb (ix2 p q) : S100000x64.Idx) = ix2 (blockRow t.val (lt20_1 t) p) q := by
  obtain ⟨-, -, e0, e1, -⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 64 + 1 * q.val = q.val; omega

theorem emb1_2 (t : Fin cfg1.N) (p : Fin 5000) (u : Fin 1) :
    (((cfg1.win 2).blk t).view.emb (ix2 p u) : S100000x1.Idx) = ix2 (blockRow t.val (lt20_1 t) p) (0 : Fin 1) := by
  obtain ⟨-, -, -, -, e0, e1, -⟩ := idx_facts1 t
  funext a; apply Fin.ext
  match a with
  | ⟨0, _⟩ => show win1_2.index t (0 : Fin 2) * 5000 + 1 * p.val = t.val * 5000 + p.val; omega
  | ⟨1, _⟩ => show win1_2.index t (1 : Fin 2) * 1 + 1 * u.val = 0; omega

theorem emb1_3 (t : Fin cfg1.N) (u : Fin 1) (q : Fin 64) :
    (((cfg1.win 3).blk t).view.emb (ix2 u q) : S1x64.Idx) = ix2 (0 : Fin 1) q := by
  obtain ⟨-, -, -, -, -, -, e0, e1, -⟩ := idx_facts1 t
  funext a; apply Fin.ext
  match a with
  | ⟨0, _⟩ => show win1_3.index t (0 : Fin 2) * 1 + 1 * u.val = 0; omega
  | ⟨1, _⟩ => show win1_3.index t (1 : Fin 2) * 64 + 1 * q.val = q.val; omega

theorem emb1_4 (t : Fin cfg1.N) (p : Fin 5000) (q : Fin 64) :
    (((cfg1.win 4).blk t).view.emb (ix2 p q) : S100000x64.Idx) = ix2 (blockRow t.val (lt20_1 t) p) q := by
  obtain ⟨-, -, -, -, -, -, -, -, e0, e1⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- The input blocks at point t, entry by entry, as entries of the arrays the region finds. -/
theorem agg1_at (c : Dev nD) (t : Fin cfg1.N) (p : Fin 5000) (q : Fin 64) :
    iblk1 V c 0 t (ix2 p q) = V c main_v42 (ix2 (blockRow t.val (lt20_1 t) p) q) := by
  show V c main_v42 (((cfg1.win 0).blk t).view.emb (ix2 p q)) = _
  rw [emb1_0]

theorem xw1_at (c : Dev nD) (t : Fin cfg1.N) (p : Fin 5000) (q : Fin 64) :
    iblk1 V c 1 t (ix2 p q) = V c main_v29 (ix2 (blockRow t.val (lt20_1 t) p) q) := by
  show V c main_v29 (((cfg1.win 1).blk t).view.emb (ix2 p q)) = _
  rw [emb1_1]

theorem dinv1_at (c : Dev nD) (t : Fin cfg1.N) (p : Fin 5000) (u : Fin 1) :
    iblk1 V c 2 t (ix2 p u) = V c main_v27 (ix2 (blockRow t.val (lt20_1 t) p) (0 : Fin 1)) := by
  show V c main_v27 (((cfg1.win 2).blk t).view.emb (ix2 p u)) = _
  rw [emb1_2]

theorem bias1_at (c : Dev nD) (t : Fin cfg1.N) (u : Fin 1) (q : Fin 64) :
    iblk1 V c 3 t (ix2 u q) = V c main_v43 (ix2 (0 : Fin 1) q) := by
  show V c main_v43 (((cfg1.win 3).blk t).view.emb (ix2 u q)) = _
  rw [emb1_3]

/-- An entry is in point t's output block iff each coordinate is in the block's range. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v44).slice (win1_4.rect t)).set ↔ _
  rw [View.set_slice_whole, Rect.mem_set_unit]
  exact Iff.rfl

/-- The output's blocks fill the array: row r is in the block of point r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- What point t writes back is block t of the whole-array stage of the arrays the stage finds. -/
theorem flushed1 (c : Dev nD) (t : Fin cfg1.N) :
    (dat1 (F := Ideal) V c).flushed 4 t = ((cfg1.win 4).blk t).view.read (Elt Ideal)
      (Cert.HostForms.combine (V c main_v42) (V c main_v29) (V c main_v27) (V c main_v43)) := by
  show (cfg1.win 4).cut (grid1.coords t) ((dat1 (F := Ideal) V c).after 4 t) = _
  rw [after1_4]
  unfold out1_4
  rw [View.canon_unit_zero zeros2]
  simp only [View.ld_unit_zero (S := S5000x64) zeros2, View.ld_unit_zero (S := S5000x1) zeros2,
    View.ld_unit_zero (S := S1x64) zeros2]
  funext j
  obtain ⟨p, q, rfl⟩ : ∃ (p : Fin 5000) (q : Fin 64), j = ix2 p q := ⟨j 0, j 1, eq_ix2 j⟩
  show k1_pay1 (iblk1 V c 2 t) (iblk1 V c 3 t) (iblk1 V c 0 t) (iblk1 V c 1 t) (ix2 p q)
    = Cert.HostForms.combine (V c main_v42) (V c main_v29) (V c main_v27) (V c main_v43)
        (((cfg1.win 4).blk t).view.emb (ix2 p q))
  refine (body1_point (iblk1 V c 2 t) (iblk1 V c 3 t) (iblk1 V c 0 t) (iblk1 V c 1 t) p q).trans ?_
  rw [emb1_4, agg1_at, xw1_at, dinv1_at, bias1_at]
  exact (combine_point (V c main_v42) (V c main_v29) (V c main_v27) (V c main_v43) _ q).symm

/-- The first layer's closing stage: the result array is the whole-array stage. -/
theorem combine1 (c : Dev nD) : (dat1 (F := Ideal) V c).arrAt 4 cfg1.N
    = Cert.HostForms.combine (V c main_v42) (V c main_v29) (V c main_v27) (V c main_v43) :=
  (dat1 (F := Ideal) V c).arrAt_eq_of_cover 4 _ (fun t _ => flushed1 V c t) cover1
/-! ## The second layer's stage -/

theorem lt20_3 (t : Fin cfg3.N) : t.val < 20 := lt_of_lt_of_eq t.isLt N_3

/-- The index maps over the grid: the row-blocked windows sit at block (t, 0) at point t, the bias row at (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block of rows is some point's. -/
theorem idx_onto3 : ∀ n : Fin 20, ∃ t : Fin cfg3.N, win3_4.index t = ![n.val, 0] :=
  (by decide +kernel : ∀ n : Fin 20, ∃ t : Fin grid3.N, win3_4.index t = ![n.val, 0])

/-- Where the entries of the blocks at point t sit in their arrays. -/
theorem emb3_0 (t : Fin cfg3.N) (p : Fin 5000) (q : Fin 64) :
    (((cfg3.win 0).blk t).view.emb (ix2 p q) : S100000x64.Idx) = ix2 (blockRow t.val (lt20_3 t) p) q := by
  obtain ⟨e0, e1, -⟩ := idx_facts3 t
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

theorem emb3_1 (t : Fin cfg3.N) (p : Fin 5000) (q : Fin 64) :
    (((cfg3.win 1).blk t).view.emb (ix2 p q) : S100000x64.Idx) = ix2 (blockRow t.val (lt20_3 t) p) q := by
  obtain ⟨-, -, e0, e1, -⟩ := idx_facts3 t
  funext a; apply Fin.ext
  match a with
  | ⟨0, _⟩ => show win3_1.index t (0 : Fin 2) * 5000 + 1 * p.val = t.val * 5000 + p.val; omega
  | ⟨1, _⟩ => show win3_1.index t (1 : Fin 2) * 64 + 1 * q.val = q.val; omega

theorem emb3_2 (t : Fin cfg3.N) (p : Fin 5000) (u : Fin 1) :
    (((cfg3.win 2).blk t).view.emb (ix2 p u) : S100000x1.Idx) = ix2 (blockRow t.val (lt20_3 t) p) (0 : Fin 1) := by
  obtain ⟨-, -, -, -, e0, e1, -⟩ := idx_facts3 t
  funext a; apply Fin.ext
  match a with
  | ⟨0, _⟩ => show win3_2.index t (0 : Fin 2) * 5000 + 1 * p.val = t.val * 5000 + p.val; omega
  | ⟨1, _⟩ => show win3_2.index t (1 : Fin 2) * 1 + 1 * u.val = 0; omega

theorem emb3_3 (t : Fin cfg3.N) (u : Fin 1) (q : Fin 64) :
    (((cfg3.win 3).blk t).view.emb (ix2 u q) : S1x64.Idx) = ix2 (0 : Fin 1) q := by
  obtain ⟨-, -, -, -, -, -, e0, e1, -⟩ := idx_facts3 t
  funext a; apply Fin.ext
  match a with
  | ⟨0, _⟩ => show win3_3.index t (0 : Fin 2) * 1 + 1 * u.val = 0; omega
  | ⟨1, _⟩ => show win3_3.index t (1 : Fin 2) * 64 + 1 * q.val = q.val; omega

theorem emb3_4 (t : Fin cfg3.N) (p : Fin 5000) (q : Fin 64) :
    (((cfg3.win 4).blk t).view.emb (ix2 p q) : S100000x64.Idx) = ix2 (blockRow t.val (lt20_3 t) p) q := by
  obtain ⟨-, -, -, -, -, -, -, -, e0, e1⟩ := idx_facts3 t
  funext a; apply Fin.ext
  match a with
  | ⟨0, _⟩ => show win3_4.index t (0 : Fin 2) * 5000 + 1 * p.val = t.val * 5000 + p.val; omega
  | ⟨1, _⟩ => show win3_4.index t (1 : Fin 2) * 64 + 1 * q.val = q.val; omega

/-- The input blocks at point t, entry by entry, as entries of the arrays the region finds. -/
theorem agg3_at (c : Dev nD) (t : Fin cfg3.N) (p : Fin 5000) (q : Fin 64) :
    iblk3 V c 0 t (ix2 p q) = V c main_v59 (ix2 (blockRow t.val (lt20_3 t) p) q) := by
  show V c main_v59 (((cfg3.win 0).blk t).view.emb (ix2 p q)) = _
  rw [emb3_0]

theorem xw3_at (c : Dev nD) (t : Fin cfg3.N) (p : Fin 5000) (q : Fin 64) :
    iblk3 V c 1 t (ix2 p q) = V c main_v46 (ix2 (blockRow t.val (lt20_3 t) p) q) := by
  show V c main_v46 (((cfg3.win 1).blk t).view.emb (ix2 p q)) = _
  rw [emb3_1]

theorem dinv3_at (c : Dev nD) (t : Fin cfg3.N) (p : Fin 5000) (u : Fin 1) :
    iblk3 V c 2 t (ix2 p u) = V c main_v27 (ix2 (blockRow t.val (lt20_3 t) p) (0 : Fin 1)) := by
  show V c main_v27 (((cfg3.win 2).blk t).view.emb (ix2 p u)) = _
  rw [emb3_2]

theorem bias3_at (c : Dev nD) (t : Fin cfg3.N) (u : Fin 1) (q : Fin 64) :
    iblk3 V c 3 t (ix2 u q) = V c main_v60 (ix2 (0 : Fin 1) q) := by
  show V c main_v60 (((cfg3.win 3).blk t).view.emb (ix2 u q)) = _
  rw [emb3_3]

/-- An entry is in point t's output block iff each coordinate is in the block's range. -/
theorem mem_blk3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v61).slice (win3_4.rect t)).set ↔ _
  rw [View.set_slice_whole, Rect.mem_set_unit]
  exact Iff.rfl

/-- The output's blocks fill the array: row r is in the block of point r / 5000. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- What point t writes back is block t of the whole-array stage of the arrays the stage finds. -/
theorem flushed3 (c : Dev nD) (t : Fin cfg3.N) :
    (dat3 (F := Ideal) V c).flushed 4 t = ((cfg3.win 4).blk t).view.read (Elt Ideal)
      (Cert.HostForms.combine (V c main_v59) (V c main_v46) (V c main_v27) (V c main_v60)) := by
  show (cfg3.win 4).cut (grid3.coords t) ((dat3 (F := Ideal) V c).after 4 t) = _
  rw [after3_4]
  unfold out3_4
  rw [View.canon_unit_zero zeros2]
  simp only [View.ld_unit_zero (S := S5000x64) zeros2, View.ld_unit_zero (S := S5000x1) zeros2,
    View.ld_unit_zero (S := S1x64) zeros2]
  funext j
  obtain ⟨p, q, rfl⟩ : ∃ (p : Fin 5000) (q : Fin 64), j = ix2 p q := ⟨j 0, j 1, eq_ix2 j⟩
  show k3_pay1 (iblk3 V c 2 t) (iblk3 V c 3 t) (iblk3 V c 0 t) (iblk3 V c 1 t) (ix2 p q)
    = Cert.HostForms.combine (V c main_v59) (V c main_v46) (V c main_v27) (V c main_v60)
        (((cfg3.win 4).blk t).view.emb (ix2 p q))
  refine (body3_point (iblk3 V c 2 t) (iblk3 V c 3 t) (iblk3 V c 0 t) (iblk3 V c 1 t) p q).trans ?_
  rw [emb3_4, agg3_at, xw3_at, dinv3_at, bias3_at]
  exact (combine_point (V c main_v59) (V c main_v46) (V c main_v27) (V c main_v60) _ q).symm

/-- The second layer's closing stage: the result array is the whole-array stage. -/
theorem combine3 (c : Dev nD) : (dat3 (F := Ideal) V c).arrAt 4 cfg3.N
    = Cert.HostForms.combine (V c main_v59) (V c main_v46) (V c main_v27) (V c main_v60) :=
  (dat3 (F := Ideal) V c).arrAt_eq_of_cover 4 _ (fun t _ => flushed3 V c t) cover3
/-! ## The third layer's stage -/

theorem lt20_5 (t : Fin cfg5.N) : t.val < 20 := lt_of_lt_of_eq t.isLt N_5

/-- The index maps over the grid: the row-blocked windows sit at block (t, 0) at point t, the bias row at (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every block of rows is some point's. -/
theorem idx_onto5 : ∀ n : Fin 20, ∃ t : Fin cfg5.N, win5_4.index t = ![n.val, 0] :=
  (by decide +kernel : ∀ n : Fin 20, ∃ t : Fin grid5.N, win5_4.index t = ![n.val, 0])

/-- Where the entries of the blocks at point t sit in their arrays. -/
theorem emb5_0 (t : Fin cfg5.N) (p : Fin 5000) (q : Fin 64) :
    (((cfg5.win 0).blk t).view.emb (ix2 p q) : S100000x64.Idx) = ix2 (blockRow t.val (lt20_5 t) p) q := by
  obtain ⟨e0, e1, -⟩ := idx_facts5 t
  funext a; apply Fin.ext
  match a with
  | ⟨0, _⟩ => show win5_0.index t (0 : Fin 2) * 5000 + 1 * p.val = t.val * 5000 + p.val; omega
  | ⟨1, _⟩ => show win5_0.index t (1 : Fin 2) * 64 + 1 * q.val = q.val; omega

theorem emb5_1 (t : Fin cfg5.N) (p : Fin 5000) (q : Fin 64) :
    (((cfg5.win 1).blk t).view.emb (ix2 p q) : S100000x64.Idx) = ix2 (blockRow t.val (lt20_5 t) p) q := by
  obtain ⟨-, -, e0, e1, -⟩ := idx_facts5 t
  funext a; apply Fin.ext
  match a with
  | ⟨0, _⟩ => show win5_1.index t (0 : Fin 2) * 5000 + 1 * p.val = t.val * 5000 + p.val; omega
  | ⟨1, _⟩ => show win5_1.index t (1 : Fin 2) * 64 + 1 * q.val = q.val; omega

theorem emb5_2 (t : Fin cfg5.N) (p : Fin 5000) (u : Fin 1) :
    (((cfg5.win 2).blk t).view.emb (ix2 p u) : S100000x1.Idx) = ix2 (blockRow t.val (lt20_5 t) p) (0 : Fin 1) := by
  obtain ⟨-, -, -, -, e0, e1, -⟩ := idx_facts5 t
  funext a; apply Fin.ext
  match a with
  | ⟨0, _⟩ => show win5_2.index t (0 : Fin 2) * 5000 + 1 * p.val = t.val * 5000 + p.val; omega
  | ⟨1, _⟩ => show win5_2.index t (1 : Fin 2) * 1 + 1 * u.val = 0; omega

theorem emb5_3 (t : Fin cfg5.N) (u : Fin 1) (q : Fin 64) :
    (((cfg5.win 3).blk t).view.emb (ix2 u q) : S1x64.Idx) = ix2 (0 : Fin 1) q := by
  obtain ⟨-, -, -, -, -, -, e0, e1, -⟩ := idx_facts5 t
  funext a; apply Fin.ext
  match a with
  | ⟨0, _⟩ => show win5_3.index t (0 : Fin 2) * 1 + 1 * u.val = 0; omega
  | ⟨1, _⟩ => show win5_3.index t (1 : Fin 2) * 64 + 1 * q.val = q.val; omega

theorem emb5_4 (t : Fin cfg5.N) (p : Fin 5000) (q : Fin 64) :
    (((cfg5.win 4).blk t).view.emb (ix2 p q) : S100000x64.Idx) = ix2 (blockRow t.val (lt20_5 t) p) q := by
  obtain ⟨-, -, -, -, -, -, -, -, e0, e1⟩ := idx_facts5 t
  funext a; apply Fin.ext
  match a with
  | ⟨0, _⟩ => show win5_4.index t (0 : Fin 2) * 5000 + 1 * p.val = t.val * 5000 + p.val; omega
  | ⟨1, _⟩ => show win5_4.index t (1 : Fin 2) * 64 + 1 * q.val = q.val; omega

/-- The input blocks at point t, entry by entry, as entries of the arrays the region finds. -/
theorem agg5_at (c : Dev nD) (t : Fin cfg5.N) (p : Fin 5000) (q : Fin 64) :
    iblk5 V c 0 t (ix2 p q) = V c main_v76 (ix2 (blockRow t.val (lt20_5 t) p) q) := by
  show V c main_v76 (((cfg5.win 0).blk t).view.emb (ix2 p q)) = _
  rw [emb5_0]

theorem xw5_at (c : Dev nD) (t : Fin cfg5.N) (p : Fin 5000) (q : Fin 64) :
    iblk5 V c 1 t (ix2 p q) = V c main_v63 (ix2 (blockRow t.val (lt20_5 t) p) q) := by
  show V c main_v63 (((cfg5.win 1).blk t).view.emb (ix2 p q)) = _
  rw [emb5_1]

theorem dinv5_at (c : Dev nD) (t : Fin cfg5.N) (p : Fin 5000) (u : Fin 1) :
    iblk5 V c 2 t (ix2 p u) = V c main_v27 (ix2 (blockRow t.val (lt20_5 t) p) (0 : Fin 1)) := by
  show V c main_v27 (((cfg5.win 2).blk t).view.emb (ix2 p u)) = _
  rw [emb5_2]

theorem bias5_at (c : Dev nD) (t : Fin cfg5.N) (u : Fin 1) (q : Fin 64) :
    iblk5 V c 3 t (ix2 u q) = V c main_v77 (ix2 (0 : Fin 1) q) := by
  show V c main_v77 (((cfg5.win 3).blk t).view.emb (ix2 u q)) = _
  rw [emb5_3]

/-- An entry is in point t's output block iff each coordinate is in the block's range. -/
theorem mem_blk5 (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v78).slice (win5_4.rect t)).set ↔ _
  rw [View.set_slice_whole, Rect.mem_set_unit]
  exact Iff.rfl

/-- The output's blocks fill the array: row r is in the block of point r / 5000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := idx_onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- What point t writes back is block t of the whole-array stage of the arrays the stage finds. -/
theorem flushed5 (c : Dev nD) (t : Fin cfg5.N) :
    (dat5 (F := Ideal) V c).flushed 4 t = ((cfg5.win 4).blk t).view.read (Elt Ideal)
      (Cert.HostForms.combine (V c main_v76) (V c main_v63) (V c main_v27) (V c main_v77)) := by
  show (cfg5.win 4).cut (grid5.coords t) ((dat5 (F := Ideal) V c).after 4 t) = _
  rw [after5_4]
  unfold out5_4
  rw [View.canon_unit_zero zeros2]
  simp only [View.ld_unit_zero (S := S5000x64) zeros2, View.ld_unit_zero (S := S5000x1) zeros2,
    View.ld_unit_zero (S := S1x64) zeros2]
  funext j
  obtain ⟨p, q, rfl⟩ : ∃ (p : Fin 5000) (q : Fin 64), j = ix2 p q := ⟨j 0, j 1, eq_ix2 j⟩
  show k5_pay1 (iblk5 V c 2 t) (iblk5 V c 3 t) (iblk5 V c 0 t) (iblk5 V c 1 t) (ix2 p q)
    = Cert.HostForms.combine (V c main_v76) (V c main_v63) (V c main_v27) (V c main_v77)
        (((cfg5.win 4).blk t).view.emb (ix2 p q))
  refine (body5_point (iblk5 V c 2 t) (iblk5 V c 3 t) (iblk5 V c 0 t) (iblk5 V c 1 t) p q).trans ?_
  rw [emb5_4, agg5_at, xw5_at, dinv5_at, bias5_at]
  exact (combine_point (V c main_v76) (V c main_v63) (V c main_v27) (V c main_v77) _ q).symm

/-- The third layer's closing stage: the result array is the whole-array stage. -/
theorem combine5 (c : Dev nD) : (dat5 (F := Ideal) V c).arrAt 4 cfg5.N
    = Cert.HostForms.combine (V c main_v76) (V c main_v63) (V c main_v27) (V c main_v77) :=
  (dat5 (F := Ideal) V c).arrAt_eq_of_cover 4 _ (fun t _ => flushed5 V c t) cover5

end Cert.KernelIdeal.RegionValue

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«179573_j79680233276324_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«179573_j79680233276324_2_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.LibHostRowMax.lean ====
/-
  The host's maximum along the second axis of an a×b array of extended reals, read at row p: the fold of `max` over
  the row from the initial value. For any extents; the reducing function is given up to an equation with `max`, so that
  an instance's own spelling of the maximum fits.
-/
import proofs.«179573_j79680233276324_2_alg».proof.Proof.LibRowReduce
import Idealize.ShloMosaic.PureOps.Reduce
import Idealize.ShloMosaic.PureOps.Ideal
import Idealize.ShloMosaic.Lib.ValueIdx

noncomputable section

namespace Cert.LibHostRowMax

open Idealize.ShloMosaic Idealize.ShloMosaic.ValueIdx Cert.LibRowReduce

variable {a b : ℕ}

/-- THE HOST'S ROW MAXIMUM at row `p`. -/
theorem hostRowMax_apply (f : EReal → EReal → EReal) (hf : f = max) (x : (⟨2, ![a, b]⟩ : Shape).Idx → EReal)
    (init : (⟨0, ![]⟩ : Shape).Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduce f x init h' hu (ix1 p)
      = (Finset.univ : Finset (Fin b)).fold max (init (Shape.Idx.first hu)) (fun k => x (ix2 p k)) := by
  subst hf
  rw [Host.reduce_eq_fold_single max x init h' h hu (ix1 p)]
  exact congrArg (fun g : Fin b → EReal => (Finset.univ : Finset (Fin b)).fold max (init (Shape.Idx.first hu)) g)
    (funext fun k => congrArg x (lift_row h p k))

end Cert.LibHostRowMax

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«179573_j79680233276324_2_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.RegionHead.lean ====
/-
  The classifier's pallas_call, read as whole arrays.

  The call runs on a grid of one point and every one of its five windows is its whole array: the pooled features
  [1000, 64], the transposed weights [64, 10], the bias row [1, 10], and the two results [1000, 10]. So the one block of
  each input IS its array, the one block of each result covers its array, and what the call leaves in a result array is
  the body's payload of the input arrays as the call finds them.

  The first payload is  max (p · wT + b[None, :], 0) : the product accumulates into zero, and on the extended reals the
  change of format of the two factors is the identity, so entry by entry it is the host's linear layer, rectified
  (`Cert.HostForms.head`). The second payload recomputes the first, f, and takes  e / rowsum e  with
  e = exp (f - rowmax f) : the row maximum is the fold of max over the row from minus infinity on both sides (the host
  joins it once more with minus infinity, the least element), the row sum the plain sum from zero on both sides, and the
  "keep the axis" column repeated along the row reads its row's entry on both sides; so it is the host's softmax of the
  first (`Cert.HostForms.softmaxRows`).
-/
import proofs.«179573_j79680233276324_2_alg».proof.Proof.Gen.KernelIdeal.Frame
import proofs.«179573_j79680233276324_2_alg».proof.Proof.HostForms
import proofs.«179573_j79680233276324_2_alg».proof.Proof.LibBlockDot
import proofs.«179573_j79680233276324_2_alg».proof.Proof.LibColumn
import proofs.«179573_j79680233276324_2_alg».proof.Proof.LibRowReduce
import proofs.«179573_j79680233276324_2_alg».proof.Proof.LibRowF32
import proofs.«179573_j79680233276324_2_alg».proof.Proof.LibHostRowMax
import proofs.«179573_j79680233276324_2_alg».proof.Proof.LibRowMin
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! ## The linear layer, entry by entry -/

/-- Entry (r, q) of the first payload is entry (r, q) of the host's rectified linear layer: the product into the zero
    accumulator is the host's product (the same sum over the 64 contracted coordinates), the bias row repeated over the
    rows reads its entry q on both sides, and the zero splat is the zero constant spread over the array. -/
theorem k6_pay1_apply (x0 : FVec Ideal S1000x64 .f32) (x1 : FVec Ideal S64x10 .f32) (x2 : FVec Ideal S1x10 .f32)
    (r : Fin 1000) (q : Fin 10) :
    k6_pay1 (F := Ideal) x0 x1 x2 (ix2 r q) = Cert.HostForms.head x0 x1 x2 (ix2 r q) := by
  unfold k6_pay1 Cert.HostForms.head
  refine congrArg₂ max (congrArg₂ (· + ·) ?_ ?_) ?_
  · rw [shapeCast_self, shapeCast_self]
    exact Cert.LibBlockDot.matmul_block_apply (R := 1000) (K := 64) (C := 10) (N := 1000)
      dot_S1000x64_S64x10_S1000x10_1_0_0_1_n_n rfl rfl rfl rfl rfl rfl
      Cert.ReferenceIdeal.Facts₀.dot_S1000x64_S64x10_S1000x10_1_0_0_1_n_n_wf none none
      (truncf .bf16 x0 bitsLt_bf16_f32) (truncf .bf16 x1 bitsLt_bf16_f32) x0 x1 r r q (fun _ => rfl) (fun _ => rfl)
  · rw [shapeCast_self, shapeCast_self]
    exact (broadcastTo_1b_ab_apply x2 _ r q).trans (Cert.LibColumn.bcastInDim_1b_ab_apply x2 _ r q).symm
  · exact (Cert.LibColumn.bcastInDim_scalar_apply (constant (F := Ideal) Cert.ReferenceIdeal.S_ .f32 0x00000000#32)
      Cert.ReferenceIdeal.Gen.bcast_S_S1000x10 (ix2 r q) ix0).symm

/-- The first payload is the host's rectified linear layer of the same three arrays. -/
theorem k6_pay1_eq_head (x0 : FVec Ideal S1000x64 .f32) (x1 : FVec Ideal S64x10 .f32) (x2 : FVec Ideal S1x10 .f32) :
    k6_pay1 (F := Ideal) x0 x1 x2 = Cert.HostForms.head x0 x1 x2 := by
  funext j
  obtain ⟨r, q, rfl⟩ : ∃ (r : Fin 1000) (q : Fin 10), j = ix2 r q := ⟨j 0, j 1, eq_ix2 j⟩
  exact k6_pay1_apply x0 x1 x2 r q

/-! ## The softmax along each row -/

/-- The single-precision word 0xFF800000 is minus infinity, the least extended real. -/
theorem negInf_word6 : Ideal.ofBits .f32 0xFF800000#32 = ⊥ := by simp [Ideal.ofBits, Ideal.ieee]

/-- Each row's maximum (taken from minus infinity), kept as a column and repeated along the row: the vector unit's spelling. -/
def laneMaxSpread6 (f : FVec Ideal S1000x10 .f32) : FVec Ideal S1000x10 .f32 :=
  broadcastTo S1000x10
    (shapeCast S1000x1 (multiReduction .maximumf [1] S1000 f 0xFF800000#32 reduces_S1000x10_S1000 (.inl rfl) rfl) shapeCasts_S1000_S1000x1)
    broadcasts_S1000x1_S1000x10

/-- Each row's sum (taken from zero), kept as a column and repeated along the row: the vector unit's spelling. -/
def laneSumSpread6 (e : FVec Ideal S1000x10 .f32) : FVec Ideal S1000x10 .f32 :=
  broadcastTo S1000x10
    (shapeCast S1000x1 (multiReduction .add [1] S1000 e 0x00000000#32 reduces_S1000x10_S1000 (.inl rfl) rfl) shapeCasts_S1000_S1000x1)
    broadcasts_S1000x1_S1000x10

/-- The softmax along each row as the vector unit spells it: e / (row sum of e) with e = exp (f - row maximum of f). -/
def laneSoftmax6 (f : FVec Ideal S1000x10 .f32) : FVec Ideal S1000x10 .f32 :=
  divf (exp (subf f (laneMaxSpread6 f))) (laneSumSpread6 (exp (subf f (laneMaxSpread6 f))))

/-- The second output's payload recomputes the first's and takes its softmax along each row. -/
theorem k6_pay2_eq_lane (x0 : FVec Ideal S1000x64 .f32) (x1 : FVec Ideal S64x10 .f32) (x2 : FVec Ideal S1x10 .f32) :
    k6_pay2 (F := Ideal) x0 x1 x2 = laneSoftmax6 (k6_pay1 (F := Ideal) x0 x1 x2) := rfl

/-- The repeated row maximum is the host's: both fold max over the row from minus infinity, and the host's further
    join with minus infinity changes nothing. -/
theorem laneMaxSpread6_eq (f : FVec Ideal S1000x10 .f32) : laneMaxSpread6 f = Cert.HostForms.rowMaxSpread f := by
  funext j
  obtain ⟨r, q, rfl⟩ : ∃ (r : Fin 1000) (q : Fin 10), j = ix2 r q := ⟨j 0, j 1, eq_ix2 j⟩
  unfold laneMaxSpread6 Cert.HostForms.rowMaxSpread
  refine (Cert.LibRowReduce.column_repeat_apply _ _ _ r q).trans ?_
  refine (Cert.LibRowF32.rowMax_f32 f _ _ _ r).trans ?_
  refine Eq.symm ((Cert.LibColumn.bcastInDim_a1_ab_apply _ _ r q).trans ?_)
  refine (Cert.LibColumn.bcastInDim_a_a1_apply _ _ r 0).trans ?_
  refine (congrArg₂ max (Cert.LibColumn.bcastInDim_scalar_apply _ _ (ix1 r) ix0)
    (Cert.LibHostRowMax.hostRowMax_apply (FloatOps.maximumf (F := Ideal) (φ := .f32)) rfl f _ _ reduces_S1000x10_S1000 _ r)).trans ?_
  show max (Ideal.ofBits .f32 0xFF800000#32) (Finset.fold max (Ideal.ofBits .f32 0xFF800000#32) (fun k => f (ix2 r k)) Finset.univ)
    = Finset.fold max (Ideal.ofBits .f32 0xFF800000#32) (fun k => f (ix2 r k)) Finset.univ
  rw [negInf_word6]
  exact max_bot_left _

/-- The repeated row sum is the host's: the host's sum starts from zero. -/
theorem laneSumSpread6_eq (e : FVec Ideal S1000x10 .f32) :
    laneSumSpread6 e = broadcastInDim Cert.ReferenceIdeal.S1000x10 ![0, 1] Cert.ReferenceIdeal.Gen.bcast_S1000x1_S1000x10_0_1
      (broadcastInDim Cert.ReferenceIdeal.S1000x1 ![0] Cert.ReferenceIdeal.Gen.bcast_S1000_S1000x1_0
        (Host.reduceAdd e (constant (F := Ideal) Cert.ReferenceIdeal.S_ .f32 0x00000000#32)
          Cert.ReferenceIdeal.Gen.reducesTo_S1000x10_S1000_d1 Cert.ReferenceIdeal.Gen.h_S_)) := by
  funext j
  obtain ⟨r, q, rfl⟩ : ∃ (r : Fin 1000) (q : Fin 10), j = ix2 r q := ⟨j 0, j 1, eq_ix2 j⟩
  unfold laneSumSpread6
  refine (Cert.LibRowReduce.column_repeat_apply _ _ _ r q).trans ?_
  refine (Cert.LibRowF32.rowSum_f32 e _ _ _ r).trans ?_
  refine Eq.symm ((Cert.LibColumn.bcastInDim_a1_ab_apply _ _ r q).trans ?_)
  refine (Cert.LibColumn.bcastInDim_a_a1_apply _ _ r 0).trans ?_
  refine (Cert.LibRowMin.hostRowSum_apply e (Ideal.ofBits .f32 0x00000000#32) _ reduces_S1000x10_S1000 r).trans ?_
  rw [Ideal.ofBits_zero_f32, zero_add]

/-- The vector unit's softmax along each row is the host's. -/
theorem laneSoftmax6_eq (f : FVec Ideal S1000x10 .f32) : laneSoftmax6 f = Cert.HostForms.softmaxRows f := by
  unfold laneSoftmax6 Cert.HostForms.softmaxRows Cert.HostForms.shiftedExp
  rw [laneMaxSpread6_eq, laneSumSpread6_eq]
  rfl

/-- The second payload is the host's softmax along each row of the host's rectified linear layer. -/
theorem k6_pay2_eq_softmax (x0 : FVec Ideal S1000x64 .f32) (x1 : FVec Ideal S64x10 .f32) (x2 : FVec Ideal S1x10 .f32) :
    k6_pay2 (F := Ideal) x0 x1 x2 = Cert.HostForms.softmaxRows (Cert.HostForms.head x0 x1 x2) :=
  (k6_pay2_eq_lane x0 x1 x2).trans ((laneSoftmax6_eq _).trans (congrArg Cert.HostForms.softmaxRows (k6_pay1_eq_head x0 x1 x2)))

/-! ## From the one block to the whole array -/

variable (V : (c : Dev nD) → (b : Ref sig .tc) → Buf (Elt Ideal) ((c : Thread nD τ).loc b))

theorem hz6 : (![0, 0] : Fin 2 → Nat) = fun _ => 0 := funext fun a => by fin_cases a <;> rfl

/-- The five index maps, decided over the one grid point: every window's block index is (0, 0). -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- The pooled features' one block is the whole array: coordinate j of the block is coordinate 0 · 1000 + j (0 · 64 + j)
    of the array. -/
theorem blk6_0_eq (c : Dev nD) (t : Fin cfg6.N) :
    (iblk6 (F := Ideal) V c 0 t : Vec Ideal S1000x64 .f32) = V c main_v89 := by
  obtain ⟨e0, e1, -⟩ := idx_facts6 t
  funext j
  show V c main_v89 (((cfg6.win 0).blk t).view.emb j) = V c main_v89 j
  refine congrArg (V c main_v89) ?_
  funext a; apply Fin.ext
  match a with
  | ⟨0, _⟩ => show win6_0.index t (0 : Fin 2) * 1000 + 1 * (j 0).val = (j 0).val; omega
  | ⟨1, _⟩ => show win6_0.index t (1 : Fin 2) * 64 + 1 * (j 1).val = (j 1).val; omega

/-- The weights' one block is the whole array. -/
theorem blk6_1_eq (c : Dev nD) (t : Fin cfg6.N) :
    (iblk6 (F := Ideal) V c 1 t : Vec Ideal S64x10 .f32) = V c main_v90 := by
  obtain ⟨-, -, e0, e1, -⟩ := idx_facts6 t
  funext j
  show V c main_v90 (((cfg6.win 1).blk t).view.emb j) = V c main_v90 j
  refine congrArg (V c main_v90) ?_
  funext a; apply Fin.ext
  match a with
  | ⟨0, _⟩ => show win6_1.index t (0 : Fin 2) * 64 + 1 * (j 0).val = (j 0).val; omega
  | ⟨1, _⟩ => show win6_1.index t (1 : Fin 2) * 10 + 1 * (j 1).val = (j 1).val; omega

/-- The bias row's one block is the whole array. -/
theorem blk6_2_eq (c : Dev nD) (t : Fin cfg6.N) :
    (iblk6 (F := Ideal) V c 2 t : Vec Ideal S1x10 .f32) = V c main_v91 := by
  obtain ⟨-, -, -, -, e0, e1, -⟩ := idx_facts6 t
  funext j
  show V c main_v91 (((cfg6.win 2).blk t).view.emb j) = V c main_v91 j
  refine congrArg (V c main_v91) ?_
  funext a; apply Fin.ext
  match a with
  | ⟨0, _⟩ => show win6_2.index t (0 : Fin 2) * 1 + 1 * (j 0).val = (j 0).val; omega
  | ⟨1, _⟩ => show win6_2.index t (1 : Fin 2) * 10 + 1 * (j 1).val = (j 1).val; omega

/-! ### The first result -/

/-- What the point writes back to the first result's array is the (one, whole) block of the first payload of the three
    input arrays. -/
theorem flushed6_3_eq (c : Dev nD) (t : Fin cfg6.N) :
    (dat6 (F := Ideal) V c).flushed 3 t
      = ((cfg6.win 3).blk t).view.read (Elt Ideal) (k6_pay1 (F := Ideal) (V c main_v89) (V c main_v90) (V c main_v91)) := by
  show (cfg6.win 3).cut (grid6.coords t) ((dat6 V c).after 3 t) = _
  rw [after6_3]
  unfold out6_3
  rw [View.canon_unit_zero hz6]
  simp only [View.ld_unit_zero (S := S1000x64) hz6, View.ld_unit_zero (S := S64x10) hz6, View.ld_unit_zero (S := S1x10) hz6]
  rw [blk6_0_eq, blk6_1_eq, blk6_2_eq]
  obtain ⟨-, -, -, -, -, -, e0, e1, -⟩ := idx_facts6 t
  funext j
  show k6_pay1 (F := Ideal) (V c main_v89) (V c main_v90) (V c main_v91) j
    = k6_pay1 (F := Ideal) (V c main_v89) (V c main_v90) (V c main_v91) (((cfg6.win 3).blk t).view.emb j)
  refine congrArg (k6_pay1 (F := Ideal) (V c main_v89) (V c main_v90) (V c main_v91)) ?_
  funext a; apply Fin.ext
  match a with
  | ⟨0, _⟩ => show (j 0).val = win6_3.index t (0 : Fin 2) * 1000 + 1 * (j 0).val; omega
  | ⟨1, _⟩ => show (j 1).val = win6_3.index t (1 : Fin 2) * 10 + 1 * (j 1).val; omega

/-- An index of the first result's array is in the point's block iff each coordinate is in the block's range. -/
theorem mem_blk6_3 (t : Fin cfg6.N) (i : S1000x10.Idx) :
    i ∈ ((cfg6.win 3).blk t).view.set ↔ ∀ a : Fin 2, win6_3.index t a * S1000x10.size a ≤ (i a).val ∧ (i a).val < win6_3.index t a * S1000x10.size a + S1000x10.size a := by
  show i ∈ ((View.whole main_v92_0).slice (win6_3.rect t)).set ↔ _
  rw [View.set_slice_whole, Rect.mem_set_unit]
  exact Iff.rfl

/-- Every index of the first result's array lies in the one point's block. -/
theorem covered6_3 (i : S1000x10.Idx) :
    ∃ t : Fin cfg6.N, (cfg6.win 3).flush t = true ∧ i ∈ ((cfg6.win 3).blk t).view.set := by
  refine ⟨t6_0, flush6_3 _, ?_⟩
  rw [mem_blk6_3]
  obtain ⟨-, -, -, -, -, -, e0, e1, -⟩ := idx_facts6 t6_0
  intro a
  match a with
  | ⟨0, _⟩ =>
    show win6_3.index t6_0 (0 : Fin 2) * 1000 ≤ (i 0).val ∧ (i 0).val < win6_3.index t6_0 (0 : Fin 2) * 1000 + 1000
    have hi : (i 0).val < 1000 := (i 0).isLt
    omega
  | ⟨1, _⟩ =>
    show win6_3.index t6_0 (1 : Fin 2) * 10 ≤ (i 1).val ∧ (i 1).val < win6_3.index t6_0 (1 : Fin 2) * 10 + 10
    have hi : (i 1).val < 10 := (i 1).isLt
    omega

/-- THE FIRST RESULT after the call: the host's rectified linear layer of the pooled features, the transposed weights
    and the bias row as the call finds them. -/
theorem head6 (c : Dev nD) :
    (dat6 (F := Ideal) V c).arrAt 3 cfg6.N = Cert.HostForms.head (V c main_v89) (V c main_v90) (V c main_v91) :=
  ((dat6 V c).arrAt_eq_of_cover 3 _ (fun t _ => flushed6_3_eq V c t) covered6_3).trans
    (k6_pay1_eq_head (V c main_v89) (V c main_v90) (V c main_v91))

/-! ### The second result -/

/-- What the point writes back to the second result's array is the (one, whole) block of the second payload of the
    three input arrays. -/
theorem flushed6_4_eq (c : Dev nD) (t : Fin cfg6.N) :
    (dat6 (F := Ideal) V c).flushed 4 t
      = ((cfg6.win 4).blk t).view.read (Elt Ideal) (k6_pay2 (F := Ideal) (V c main_v89) (V c main_v90) (V c main_v91)) := by
  show (cfg6.win 4).cut (grid6.coords t) ((dat6 V c).after 4 t) = _
  rw [after6_4]
  unfold out6_4
  rw [View.canon_unit_zero hz6]
  simp only [View.ld_unit_zero (S := S1000x64) hz6, View.ld_unit_zero (S := S64x10) hz6, View.ld_unit_zero (S := S1x10) hz6]
  rw [blk6_0_eq, blk6_1_eq, blk6_2_eq]
  obtain ⟨-, -, -, -, -, -, -, -, e0, e1⟩ := idx_facts6 t
  funext j
  show k6_pay2 (F := Ideal) (V c main_v89) (V c main_v90) (V c main_v91) j
    = k6_pay2 (F := Ideal) (V c main_v89) (V c main_v90) (V c main_v91) (((cfg6.win 4).blk t).view.emb j)
  refine congrArg (k6_pay2 (F := Ideal) (V c main_v89) (V c main_v90) (V c main_v91)) ?_
  funext a; apply Fin.ext
  match a with
  | ⟨0, _⟩ => show (j 0).val = win6_4.index t (0 : Fin 2) * 1000 + 1 * (j 0).val; omega
  | ⟨1, _⟩ => show (j 1).val = win6_4.index t (1 : Fin 2) * 10 + 1 * (j 1).val; omega

/-- An index of the second result's array is in the point's block iff each coordinate is in the block's range. -/
theorem mem_blk6_4 (t : Fin cfg6.N) (i : S1000x10.Idx) :
    i ∈ ((cfg6.win 4).blk t).view.set ↔ ∀ a : Fin 2, win6_4.index t a * S1000x10.size a ≤ (i a).val ∧ (i a).val < win6_4.index t a * S1000x10.size a + S1000x10.size a := by
  show i ∈ ((View.whole main_v92_1).slice (win6_4.rect t)).set ↔ _
  rw [View.set_slice_whole, Rect.mem_set_unit]
  exact Iff.rfl

/-- Every index of the second result's array lies in the one point's block. -/
theorem covered6_4 (i : S1000x10.Idx) :
    ∃ t : Fin cfg6.N, (cfg6.win 4).flush t = true ∧ i ∈ ((cfg6.win 4).blk t).view.set := by
  refine ⟨t6_0, flush6_4 _, ?_⟩
  rw [mem_blk6_4]
  obtain ⟨-, -, -, -, -, -, -, -, e0, e1⟩ := idx_facts6 t6_0
  intro a
  match a with
  | ⟨0, _⟩ =>
    show win6_4.index t6_0 (0 : Fin 2) * 1000 ≤ (i 0).val ∧ (i 0).val < win6_4.index t6_0 (0 : Fin 2) * 1000 + 1000
    have hi : (i 0).val < 1000 := (i 0).isLt
    omega
  | ⟨1, _⟩ =>
    show win6_4.index t6_0 (1 : Fin 2) * 10 ≤ (i 1).val ∧ (i 1).val < win6_4.index t6_0 (1 : Fin 2) * 10 + 10
    have hi : (i 1).val < 10 := (i 1).isLt
    omega

/-- THE SECOND RESULT after the call: the host's softmax along each row of the first result. -/
theorem softmax6 (c : Dev nD) :
    (dat6 (F := Ideal) V c).arrAt 4 cfg6.N
      = Cert.HostForms.softmaxRows (Cert.HostForms.head (V c main_v89) (V c main_v90) (V c main_v91)) :=
  ((dat6 V c).arrAt_eq_of_cover 4 _ (fun t _ => flushed6_4_eq V c t) covered6_4).trans
    (k6_pay2_eq_softmax (V c main_v89) (V c main_v90) (V c main_v91))

end Cert.KernelIdeal.RegionValue

end
-- ==== Proof.Carry.lean ====
/-
  What a host stretch and a pallas_call leave alone.  The buffer contents at the boundaries of @main are a fold
  (`Gen.W0` … `Gen.W16`): a stretch of host operations changes only the buffers its operations write, and a pallas_call
  only its output arrays.  Two small tactics prove "this buffer is as it was one boundary earlier", and the bundle
  `RegionFacts` states what each pallas_call leaves in its output array as a function of the arrays it found
  (proved in the three region modules; the chain of boundaries is developed over the bundle).
-/
import proofs.«179573_j79680233276324_2_alg».proof.Proof.Gen.KernelIdeal.Frame
import proofs.«179573_j79680233276324_2_alg».proof.Proof.HostForms
import Idealize.ShloMosaic.Lib.StableHlo.Run
import Idealize.ShloMosaic.PureOps.Ideal

set_option maxRecDepth 16384

noncomputable section

namespace Cert.Chain

open Cert.KernelIdeal Cert.KernelIdeal.Gen
open Idealize.ShloMosaic Idealize.ShloMosaic.TcCoe Idealize.SL.Sem Idealize.ShloMosaic.StableHlo

/-- A buffer none of the stretch's operations writes holds after the stretch what it held before. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- What each of the seven pallas_calls leaves in its output arrays, as a function of the arrays it found when it was
    entered (`V`): three products with a transposed weight matrix, three closing stages of a layer, the classifier's
    linear layer and its softmax. -/
structure RegionFacts : Prop where
  product0 : ∀ (V : (c : Dev nD) → (b : Ref sig .tc) → Buf (Elt Ideal) ((c : Thread nD τ).loc b)) (c : Dev nD),
    (dat0 (F := Ideal) V c).arrAt 2 cfg0.N = Cert.HostForms.product (V c main_arg0) (V c main_v28)
  product2 : ∀ (V : (c : Dev nD) → (b : Ref sig .tc) → Buf (Elt Ideal) ((c : Thread nD τ).loc b)) (c : Dev nD),
    (dat2 (F := Ideal) V c).arrAt 2 cfg2.N = Cert.HostForms.product (V c main_v44) (V c main_v45)
  product4 : ∀ (V : (c : Dev nD) → (b : Ref sig .tc) → Buf (Elt Ideal) ((c : Thread nD τ).loc b)) (c : Dev nD),
    (dat4 (F := Ideal) V c).arrAt 2 cfg4.N = Cert.HostForms.product (V c main_v61) (V c main_v62)
  combine1 : ∀ (V : (c : Dev nD) → (b : Ref sig .tc) → Buf (Elt Ideal) ((c : Thread nD τ).loc b)) (c : Dev nD),
    (dat1 (F := Ideal) V c).arrAt 4 cfg1.N = Cert.HostForms.combine (V c main_v42) (V c main_v29) (V c main_v27) (V c main_v43)
  combine3 : ∀ (V : (c : Dev nD) → (b : Ref sig .tc) → Buf (Elt Ideal) ((c : Thread nD τ).loc b)) (c : Dev nD),
    (dat3 (F := Ideal) V c).arrAt 4 cfg3.N = Cert.HostForms.combine (V c main_v59) (V c main_v46) (V c main_v27) (V c main_v60)
  combine5 : ∀ (V : (c : Dev nD) → (b : Ref sig .tc) → Buf (Elt Ideal) ((c : Thread nD τ).loc b)) (c : Dev nD),
    (dat5 (F := Ideal) V c).arrAt 4 cfg5.N = Cert.HostForms.combine (V c main_v76) (V c main_v63) (V c main_v27) (V c main_v77)
  head6 : ∀ (V : (c : Dev nD) → (b : Ref sig .tc) → Buf (Elt Ideal) ((c : Thread nD τ).loc b)) (c : Dev nD),
    (dat6 (F := Ideal) V c).arrAt 3 cfg6.N = Cert.HostForms.head (V c main_v89) (V c main_v90) (V c main_v91)
  softmax6 : ∀ (V : (c : Dev nD) → (b : Ref sig .tc) → Buf (Elt Ideal) ((c : Thread nD τ).loc b)) (c : Dev nD),
    (dat6 (F := Ideal) V c).arrAt 4 cfg6.N
      = Cert.HostForms.softmaxRows (Cert.HostForms.head (V c main_v89) (V c main_v90) (V c main_v91))

end Cert.Chain

end
-- ==== Proof.LibRowCast.lean ====
/-
  A vector laid out as a one-row matrix, two spellings.

  Reshaping a length-n vector to shape [1, n] and broadcasting it along axis 1 into shape [1, n] give the same array:
  at (u, q) both read the vector's entry q (the unit coordinate u does not matter). It is the row companion of the
  column form (a vector cast to [n, 1] is its broadcast along axis 0).
-/
import proofs.«179573_j79680233276324_2_alg».proof.Proof.LibColumn
import Idealize.ShloMosaic.Lib.Pipeline.Value
import Idealize.ShloMosaic.Lib.ValueIdx
import Idealize.ShloMosaic.Lib.ValueLayout

namespace Cert.LibRowCast

open Idealize.ShloMosaic Idealize.ShloMosaic.ValueIdx

variable {α : Type}

/-- A vector `[n]` cast to a row `[1, n]` is the vector broadcast (host) along axis `[1]` to `[1, n]`. -/
theorem shapeCast_n_1n_eq_bcastInDim {n : ℕ} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, Cert.LibColumn.bcastInDim_b_1b_apply]

end Cert.LibRowCast
-- ==== Proof.ChainA.lean ====
/-
  The first layer, boundary by boundary.  Before the first pallas_call the host computes, from the edge list x1, the
  sources and destinations, the inverse square roots of the degrees, the edge weights (their products at the two ends)
  and the squared inverse roots as a column; the first pallas_call multiplies the features by the transposed weights;
  the host gathers, weights and scatter-adds the messages; the second pallas_call adds the self-loop term and the bias and
  rectifies.  Each buffer of the idealized kernel is identified with the stage of the reference program that computes
  the same array (`val_main_vN`, functions of the argument arrays).  The only places where the two programs spell a
  stage differently are a vector reshaped to a column or to a row where the reference broadcasts it: the same array.
-/
import proofs.«179573_j79680233276324_2_alg».proof.Proof.Carry
import proofs.«179573_j79680233276324_2_alg».proof.Proof.Gen.ReferenceIdeal.Read
import proofs.«179573_j79680233276324_2_alg».proof.Proof.LibColumn
import proofs.«179573_j79680233276324_2_alg».proof.Proof.LibRowCast

set_option maxRecDepth 16384

noncomputable section

namespace Cert.Chain

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v10 val_main_v11 val_main_v12 val_main_v27 val_main_v40
  val_main_v41 val_main_v42 val_main_v46 val_main_v49)

variable (m : (ℓ : Loc nD τ sig) → Buf (Elt Ideal) ℓ) (ρ : Dev nD → PrngReg) (c : Dev nD)

-- the argument arrays as launched
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## Boundary 1: after the first stretch of host operations -/

theorem W0_arg (b : Ref sig .tc) : W0 m ρ c (Proc.devRef .tc b) = m ((c : Thread nD τ).loc b) := rfl

theorem L1_v1 : W1 m ρ c (Proc.devRef .tc main_v1) = val_main_v1 (F := Ideal) x1 := by
  dsimp only [W1, hostOps0]; after_results_simp; try rfl

theorem L1_v3 : W1 m ρ c (Proc.devRef .tc main_v3) = val_main_v3 (F := Ideal) x1 := by
  dsimp only [W1, hostOps0]; after_results_simp; try rfl

theorem L1_v25 : W1 m ρ c (Proc.devRef .tc main_v25) = val_main_v27 (F := Ideal) x1 := by
  dsimp only [W1, hostOps0]; after_results_simp; try rfl

/-- The squared inverse roots, which the kernel's program reshapes to a column and the reference broadcasts to one. -/
theorem L1_v27 : W1 m ρ c (Proc.devRef .tc main_v27) = val_main_v42 (F := Ideal) x1 := by
  dsimp only [W1, hostOps0]; after_results_simp
  exact (Cert.LibColumn.shapeCast_a_a1_eq_bcastInDim (a := 100000) _ _ Cert.ReferenceIdeal.Gen.bcast_S100000_S100000x1_0).trans rfl

theorem L1_v28 : W1 m ρ c (Proc.devRef .tc main_v28) = val_main_v11 (F := Ideal) x3 := by
  dsimp only [W1, hostOps0]; after_results_simp; try rfl

theorem L1_arg (b : Ref sig .tc) (hb : W1 m ρ c (Proc.devRef .tc b) = W0 m ρ c (Proc.devRef .tc b)) :
    W1 m ρ c (Proc.devRef .tc b) = m ((c : Thread nD τ).loc b) := hb.trans rfl

theorem L1_arg0 : W1 m ρ c (Proc.devRef .tc main_arg0) = x0 := L1_arg m ρ c main_arg0 (by host_keeps hostOps0)
theorem L1_arg4 : W1 m ρ c (Proc.devRef .tc main_arg4) = x4 := L1_arg m ρ c main_arg4 (by host_keeps hostOps0)

/-! ## Boundary 2: after the first pallas_call (the product of the features with the transposed weights) -/

theorem L2_v29 (RF : RegionFacts) : W2 m ρ c (Proc.devRef .tc main_v29) = val_main_v12 (F := Ideal) x0 x3 := by
  refine (W2_arr m ρ c 2).trans ?_
  rw [RF.product0 (V1 m ρ) c]
  exact (congrArg₂ Cert.HostForms.product (L1_arg0 m ρ c) (L1_v28 m ρ c)).trans rfl

theorem L2_v1 : W2 m ρ c (Proc.devRef .tc main_v1) = val_main_v1 (F := Ideal) x1 := (W2_of_ne m ρ c main_v1 (by decide)).trans (L1_v1 m ρ c)
theorem L2_v3 : W2 m ρ c (Proc.devRef .tc main_v3) = val_main_v3 (F := Ideal) x1 := (W2_of_ne m ρ c main_v3 (by decide)).trans (L1_v3 m ρ c)
theorem L2_v25 : W2 m ρ c (Proc.devRef .tc main_v25) = val_main_v27 (F := Ideal) x1 := (W2_of_ne m ρ c main_v25 (by decide)).trans (L1_v25 m ρ c)
theorem L2_v27 : W2 m ρ c (Proc.devRef .tc main_v27) = val_main_v42 (F := Ideal) x1 := (W2_of_ne m ρ c main_v27 (by decide)).trans (L1_v27 m ρ c)
theorem L2_arg4 : W2 m ρ c (Proc.devRef .tc main_arg4) = x4 := (W2_of_ne m ρ c main_arg4 (by decide)).trans (L1_arg4 m ρ c)

/-! ## Boundary 3: after the messages are gathered, weighted and scatter-added -/

theorem L3_v42 (RF : RegionFacts) : W3 m ρ c (Proc.devRef .tc main_v42) = val_main_v40 (F := Ideal) x0 x1 x3 := by
  dsimp only [W3, hostOps1]; after_results_simp
  rw [L2_v3 m ρ c, L2_v29 m ρ c RF, L2_v1 m ρ c, L2_v25 m ρ c]
  rfl

/-- The bias, which the kernel's program reshapes to a row and the reference broadcasts to one. -/
theorem L3_v43 : W3 m ρ c (Proc.devRef .tc main_v43) = val_main_v46 (F := Ideal) x4 := by
  dsimp only [W3, hostOps1]; after_results_simp
  rw [L2_arg4 m ρ c]
  exact (Cert.LibRowCast.shapeCast_n_1n_eq_bcastInDim (n := 64) _ _ Cert.ReferenceIdeal.Gen.bcast_S64_S1x64_1).trans rfl

theorem L3_v29 (RF : RegionFacts) : W3 m ρ c (Proc.devRef .tc main_v29) = val_main_v12 (F := Ideal) x0 x3 :=
  (by host_keeps hostOps1 : W3 m ρ c (Proc.devRef .tc main_v29) = W2 m ρ c (Proc.devRef .tc main_v29)).trans (L2_v29 m ρ c RF)
theorem L3_v27 : W3 m ρ c (Proc.devRef .tc main_v27) = val_main_v42 (F := Ideal) x1 :=
  (by host_keeps hostOps1 : W3 m ρ c (Proc.devRef .tc main_v27) = W2 m ρ c (Proc.devRef .tc main_v27)).trans (L2_v27 m ρ c)

/-! ## Boundary 4: after the second pallas_call — the first layer's output -/

theorem L4_v44 (RF : RegionFacts) : W4 m ρ c (Proc.devRef .tc main_v44) = val_main_v49 (F := Ideal) x0 x1 x3 x4 := by
  refine (W4_arr m ρ c 4).trans ?_
  rw [RF.combine1 (V3 m ρ) c]
  exact (congr (congr (congr (congrArg Cert.HostForms.combine (L3_v42 m ρ c RF)) (L3_v29 m ρ c RF)) (L3_v27 m ρ c)) (L3_v43 m ρ c)).trans rfl

end Cert.Chain

end
-- ==== Proof.ChainB.lean ====
/-
  The second layer, boundary by boundary, exactly as the first: the host transposes the weights; a pallas_call
  multiplies the first layer's output by them; the host gathers, weights and scatter-adds the messages (the edge
  weights computed once before the first layer are reused, where the reference computes the same array again); a
  pallas_call adds the self-loop term and the bias and rectifies.  Buffers that no operation in between writes are
  carried along: the sources, the destinations, the edge weights, the column of squared inverse roots, the arguments.
-/
import proofs.«179573_j79680233276324_2_alg».proof.Proof.ChainA

set_option maxRecDepth 16384

noncomputable section

namespace Cert.Chain

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v27 val_main_v42 val_main_v49 val_main_v50 val_main_v51
  val_main_v66 val_main_v79 val_main_v81 val_main_v85 val_main_v88)

variable (m : (ℓ : Loc nD τ sig) → Buf (Elt Ideal) ℓ) (ρ : Dev nD → PrngReg) (c : Dev nD)

-- the argument arrays as launched
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- The reference computes the edge weights anew in every layer: the same operations of the same edge list. -/
theorem weights_again (e : (⟨Cert.ReferenceIdeal.S2x1600000, .i32⟩ : BufTy).Contents (Elt Ideal)) :
    val_main_v66 (F := Ideal) e = val_main_v27 (F := Ideal) e := rfl

/-- Likewise the column of squared inverse roots. -/
theorem column_again (e : (⟨Cert.ReferenceIdeal.S2x1600000, .i32⟩ : BufTy).Contents (Elt Ideal)) :
    val_main_v81 (F := Ideal) e = val_main_v42 (F := Ideal) e := rfl

/-! ## What is carried from boundary 2 to boundary 6 -/

/-- A buffer written neither by the two stretches nor by the two pallas_calls between boundaries 2 and 6. -/
theorem carry_2_6 (b : Ref sig .tc)
    (h3 : W3 m ρ c (Proc.devRef .tc b) = W2 m ρ c (Proc.devRef .tc b)) (h4 : ∀ w, Pipeline.arrRef spec1 w ≠ b)
    (h5 : W5 m ρ c (Proc.devRef .tc b) = W4 m ρ c (Proc.devRef .tc b)) (h6 : ∀ w, Pipeline.arrRef spec2 w ≠ b) :
    W6 m ρ c (Proc.devRef .tc b) = W2 m ρ c (Proc.devRef .tc b) :=
  (W6_of_ne m ρ c b h6).trans (h5.trans ((W4_of_ne m ρ c b h4).trans h3))

theorem L6_v1 : W6 m ρ c (Proc.devRef .tc main_v1) = val_main_v1 (F := Ideal) x1 :=
  (carry_2_6 m ρ c main_v1 (by host_keeps hostOps1) (by decide) (by host_keeps hostOps2) (by decide)).trans (L2_v1 m ρ c)
theorem L6_v3 : W6 m ρ c (Proc.devRef .tc main_v3) = val_main_v3 (F := Ideal) x1 :=
  (carry_2_6 m ρ c main_v3 (by host_keeps hostOps1) (by decide) (by host_keeps hostOps2) (by decide)).trans (L2_v3 m ρ c)
theorem L6_v25 : W6 m ρ c (Proc.devRef .tc main_v25) = val_main_v66 (F := Ideal) x1 :=
  ((carry_2_6 m ρ c main_v25 (by host_keeps hostOps1) (by decide) (by host_keeps hostOps2) (by decide)).trans (L2_v25 m ρ c)).trans
    (weights_again _).symm

/-- The arguments at boundary 2. -/
theorem L2_arg (b : Ref sig .tc) (h1 : W1 m ρ c (Proc.devRef .tc b) = W0 m ρ c (Proc.devRef .tc b))
    (h2 : ∀ w, Pipeline.arrRef spec0 w ≠ b) : W2 m ρ c (Proc.devRef .tc b) = m ((c : Thread nD τ).loc b) :=
  (W2_of_ne m ρ c b h2).trans (h1.trans rfl)

theorem L4_arg5 : W4 m ρ c (Proc.devRef .tc main_arg5) = x5 :=
  (W4_of_ne m ρ c main_arg5 (by decide)).trans
    ((by host_keeps hostOps1 : W3 m ρ c (Proc.devRef .tc main_arg5) = W2 m ρ c (Proc.devRef .tc main_arg5)).trans
      (L2_arg m ρ c main_arg5 (by host_keeps hostOps0) (by decide)))
theorem L6_arg6 : W6 m ρ c (Proc.devRef .tc main_arg6) = x6 :=
  (carry_2_6 m ρ c main_arg6 (by host_keeps hostOps1) (by decide) (by host_keeps hostOps2) (by decide)).trans
    (L2_arg m ρ c main_arg6 (by host_keeps hostOps0) (by decide))

/-- The column of squared inverse roots is one of the second pallas_call's input arrays: as it was found. -/
theorem L4_v27 : W4 m ρ c (Proc.devRef .tc main_v27) = val_main_v42 (F := Ideal) x1 :=
  ((W4_arr m ρ c 2).trans (((dat1 (V3 m ρ) c).arrAt_in 2 rfl _).trans (A_eq1 (V3 m ρ) c 2))).trans (L3_v27 m ρ c)
theorem L7_v27 : W7 m ρ c (Proc.devRef .tc main_v27) = val_main_v81 (F := Ideal) x1 :=
  ((by host_keeps hostOps3 : W7 m ρ c (Proc.devRef .tc main_v27) = W6 m ρ c (Proc.devRef .tc main_v27)).trans
    ((W6_of_ne m ρ c main_v27 (by decide)).trans
      ((by host_keeps hostOps2 : W5 m ρ c (Proc.devRef .tc main_v27) = W4 m ρ c (Proc.devRef .tc main_v27)).trans
        (L4_v27 m ρ c)))).trans (column_again _).symm

/-! ## Boundary 5: the weights transposed -/

theorem L5_v45 : W5 m ρ c (Proc.devRef .tc main_v45) = val_main_v50 (F := Ideal) x5 := by
  dsimp only [W5, hostOps2]; after_results_simp
  rw [L4_arg5 m ρ c]
  try rfl

theorem L5_v44 (RF : RegionFacts) : W5 m ρ c (Proc.devRef .tc main_v44) = val_main_v49 (F := Ideal) x0 x1 x3 x4 :=
  (by host_keeps hostOps2 : W5 m ρ c (Proc.devRef .tc main_v44) = W4 m ρ c (Proc.devRef .tc main_v44)).trans (L4_v44 m ρ c RF)

/-! ## Boundary 6: the layer's product with the transposed weights -/

theorem L6_v46 (RF : RegionFacts) : W6 m ρ c (Proc.devRef .tc main_v46) = val_main_v51 (F := Ideal) x0 x1 x3 x4 x5 := by
  refine (W6_arr m ρ c 2).trans ?_
  rw [RF.product2 (V5 m ρ) c]
  exact (congrArg₂ Cert.HostForms.product (L5_v44 m ρ c RF) (L5_v45 m ρ c)).trans rfl

/-- The layer's input, one of the pallas_call's input arrays, is as it was found. -/
theorem L6_v44 (RF : RegionFacts) : W6 m ρ c (Proc.devRef .tc main_v44) = val_main_v49 (F := Ideal) x0 x1 x3 x4 :=
  ((W6_arr m ρ c 0).trans (((dat2 (V5 m ρ) c).arrAt_in 0 rfl _).trans (A_eq2 (V5 m ρ) c 0))).trans (L5_v44 m ρ c RF)

/-! ## Boundary 7: the messages gathered, weighted and scatter-added -/

theorem L7_v59 (RF : RegionFacts) : W7 m ρ c (Proc.devRef .tc main_v59) = val_main_v79 (F := Ideal) x0 x1 x3 x4 x5 := by
  dsimp only [W7, hostOps3]; after_results_simp
  rw [L6_v3 m ρ c, L6_v46 m ρ c RF, L6_v1 m ρ c, L6_v25 m ρ c]
  rfl

theorem L7_v60 : W7 m ρ c (Proc.devRef .tc main_v60) = val_main_v85 (F := Ideal) x6 := by
  dsimp only [W7, hostOps3]; after_results_simp
  rw [L6_arg6 m ρ c]
  exact (Cert.LibRowCast.shapeCast_n_1n_eq_bcastInDim (n := 64) _ _ Cert.ReferenceIdeal.Gen.bcast_S64_S1x64_1).trans rfl

theorem L7_v46 (RF : RegionFacts) : W7 m ρ c (Proc.devRef .tc main_v46) = val_main_v51 (F := Ideal) x0 x1 x3 x4 x5 :=
  (by host_keeps hostOps3 : W7 m ρ c (Proc.devRef .tc main_v46) = W6 m ρ c (Proc.devRef .tc main_v46)).trans (L6_v46 m ρ c RF)

/-! ## Boundary 8: the layer's output -/

theorem L8_v61 (RF : RegionFacts) : W8 m ρ c (Proc.devRef .tc main_v61) = val_main_v88 (F := Ideal) x0 x1 x3 x4 x5 x6 := by
  refine (W8_arr m ρ c 4).trans ?_
  rw [RF.combine3 (V7 m ρ) c]
  exact (congr (congr (congr (congrArg Cert.HostForms.combine (L7_v59 m ρ c RF)) (L7_v46 m ρ c RF)) (L7_v27 m ρ c)) (L7_v60 m ρ c)).trans rfl

end Cert.Chain

end
-- ==== Proof.ChainC.lean ====
/-
  The third layer, boundary by boundary, exactly as the second (boundaries 8 to 12: transpose, product, messages,
  closing stage), and what the pooling stage will need at boundary 12: the three layers' outputs.
-/
import proofs.«179573_j79680233276324_2_alg».proof.Proof.ChainB

set_option maxRecDepth 16384

noncomputable section

namespace Cert.Chain

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v27 val_main_v42 val_main_v49 val_main_v66 val_main_v81
  val_main_v88 val_main_v89 val_main_v90 val_main_v105 val_main_v118 val_main_v120 val_main_v124 val_main_v127)

variable (m : (ℓ : Loc nD τ sig) → Buf (Elt Ideal) ℓ) (ρ : Dev nD → PrngReg) (c : Dev nD)

-- the argument arrays as launched
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- The reference computes the edge weights anew in every layer: the same operations of the same edge list. -/
theorem weights_third (e : (⟨Cert.ReferenceIdeal.S2x1600000, .i32⟩ : BufTy).Contents (Elt Ideal)) :
    val_main_v105 (F := Ideal) e = val_main_v27 (F := Ideal) e := rfl

/-- Likewise the column of squared inverse roots. -/
theorem column_third (e : (⟨Cert.ReferenceIdeal.S2x1600000, .i32⟩ : BufTy).Contents (Elt Ideal)) :
    val_main_v120 (F := Ideal) e = val_main_v42 (F := Ideal) e := rfl

/-! ## What is carried from boundary 6 to boundary 10 -/

/-- A buffer written neither by the two stretches nor by the two pallas_calls between boundaries 6 and 10. -/
theorem carry_6_10 (b : Ref sig .tc)
    (h7 : W7 m ρ c (Proc.devRef .tc b) = W6 m ρ c (Proc.devRef .tc b)) (h8 : ∀ w, Pipeline.arrRef spec3 w ≠ b)
    (h9 : W9 m ρ c (Proc.devRef .tc b) = W8 m ρ c (Proc.devRef .tc b)) (h10 : ∀ w, Pipeline.arrRef spec4 w ≠ b) :
    W10 m ρ c (Proc.devRef .tc b) = W6 m ρ c (Proc.devRef .tc b) :=
  (W10_of_ne m ρ c b h10).trans (h9.trans ((W8_of_ne m ρ c b h8).trans h7))

theorem L10_v1 : W10 m ρ c (Proc.devRef .tc main_v1) = val_main_v1 (F := Ideal) x1 :=
  (carry_6_10 m ρ c main_v1 (by host_keeps hostOps3) (by decide) (by host_keeps hostOps4) (by decide)).trans (L6_v1 m ρ c)
theorem L10_v3 : W10 m ρ c (Proc.devRef .tc main_v3) = val_main_v3 (F := Ideal) x1 :=
  (carry_6_10 m ρ c main_v3 (by host_keeps hostOps3) (by decide) (by host_keeps hostOps4) (by decide)).trans (L6_v3 m ρ c)
theorem L10_v25 : W10 m ρ c (Proc.devRef .tc main_v25) = val_main_v105 (F := Ideal) x1 :=
  ((carry_6_10 m ρ c main_v25 (by host_keeps hostOps3) (by decide) (by host_keeps hostOps4) (by decide)).trans (L6_v25 m ρ c)).trans
    ((weights_again _).trans (weights_third _).symm)

theorem L6_arg7 : W6 m ρ c (Proc.devRef .tc main_arg7) = x7 :=
  (carry_2_6 m ρ c main_arg7 (by host_keeps hostOps1) (by decide) (by host_keeps hostOps2) (by decide)).trans
    (L2_arg m ρ c main_arg7 (by host_keeps hostOps0) (by decide))
theorem L6_arg8 : W6 m ρ c (Proc.devRef .tc main_arg8) = x8 :=
  (carry_2_6 m ρ c main_arg8 (by host_keeps hostOps1) (by decide) (by host_keeps hostOps2) (by decide)).trans
    (L2_arg m ρ c main_arg8 (by host_keeps hostOps0) (by decide))

theorem L8_arg7 : W8 m ρ c (Proc.devRef .tc main_arg7) = x7 :=
  (W8_of_ne m ρ c main_arg7 (by decide)).trans
    ((by host_keeps hostOps3 : W7 m ρ c (Proc.devRef .tc main_arg7) = W6 m ρ c (Proc.devRef .tc main_arg7)).trans
      (L6_arg7 m ρ c))
theorem L10_arg8 : W10 m ρ c (Proc.devRef .tc main_arg8) = x8 :=
  (carry_6_10 m ρ c main_arg8 (by host_keeps hostOps3) (by decide) (by host_keeps hostOps4) (by decide)).trans (L6_arg8 m ρ c)

/-- The column of squared inverse roots is one of the fourth pallas_call's input arrays: as it was found. -/
theorem L8_v27 : W8 m ρ c (Proc.devRef .tc main_v27) = val_main_v42 (F := Ideal) x1 :=
  ((W8_arr m ρ c 2).trans (((dat3 (V7 m ρ) c).arrAt_in 2 rfl _).trans (A_eq3 (V7 m ρ) c 2))).trans
    ((L7_v27 m ρ c).trans (column_again _))
theorem L11_v27 : W11 m ρ c (Proc.devRef .tc main_v27) = val_main_v120 (F := Ideal) x1 :=
  ((by host_keeps hostOps5 : W11 m ρ c (Proc.devRef .tc main_v27) = W10 m ρ c (Proc.devRef .tc main_v27)).trans
    ((W10_of_ne m ρ c main_v27 (by decide)).trans
      ((by host_keeps hostOps4 : W9 m ρ c (Proc.devRef .tc main_v27) = W8 m ρ c (Proc.devRef .tc main_v27)).trans
        (L8_v27 m ρ c)))).trans (column_third _).symm

/-! ## Boundary 9: the weights transposed -/

theorem L9_v62 : W9 m ρ c (Proc.devRef .tc main_v62) = val_main_v89 (F := Ideal) x7 := by
  dsimp only [W9, hostOps4]; after_results_simp
  rw [L8_arg7 m ρ c]
  try rfl

theorem L9_v61 (RF : RegionFacts) : W9 m ρ c (Proc.devRef .tc main_v61) = val_main_v88 (F := Ideal) x0 x1 x3 x4 x5 x6 :=
  (by host_keeps hostOps4 : W9 m ρ c (Proc.devRef .tc main_v61) = W8 m ρ c (Proc.devRef .tc main_v61)).trans (L8_v61 m ρ c RF)

/-! ## Boundary 10: the layer's product with the transposed weights -/

theorem L10_v63 (RF : RegionFacts) : W10 m ρ c (Proc.devRef .tc main_v63) = val_main_v90 (F := Ideal) x0 x1 x3 x4 x5 x6 x7 := by
  refine (W10_arr m ρ c 2).trans ?_
  rw [RF.product4 (V9 m ρ) c]
  exact (congrArg₂ Cert.HostForms.product (L9_v61 m ρ c RF) (L9_v62 m ρ c)).trans rfl

/-- The layer's input, one of the pallas_call's input arrays, is as it was found. -/
theorem L10_v61 (RF : RegionFacts) : W10 m ρ c (Proc.devRef .tc main_v61) = val_main_v88 (F := Ideal) x0 x1 x3 x4 x5 x6 :=
  ((W10_arr m ρ c 0).trans (((dat4 (V9 m ρ) c).arrAt_in 0 rfl _).trans (A_eq4 (V9 m ρ) c 0))).trans (L9_v61 m ρ c RF)

/-! ## Boundary 11: the messages gathered, weighted and scatter-added -/

theorem L11_v76 (RF : RegionFacts) : W11 m ρ c (Proc.devRef .tc main_v76) = val_main_v118 (F := Ideal) x0 x1 x3 x4 x5 x6 x7 := by
  dsimp only [W11, hostOps5]; after_results_simp
  rw [L10_v3 m ρ c, L10_v63 m ρ c RF, L10_v1 m ρ c, L10_v25 m ρ c]
  rfl

theorem L11_v77 : W11 m ρ c (Proc.devRef .tc main_v77) = val_main_v124 (F := Ideal) x8 := by
  dsimp only [W11, hostOps5]; after_results_simp
  rw [L10_arg8 m ρ c]
  exact (Cert.LibRowCast.shapeCast_n_1n_eq_bcastInDim (n := 64) _ _ Cert.ReferenceIdeal.Gen.bcast_S64_S1x64_1).trans rfl

theorem L11_v63 (RF : RegionFacts) : W11 m ρ c (Proc.devRef .tc main_v63) = val_main_v90 (F := Ideal) x0 x1 x3 x4 x5 x6 x7 :=
  (by host_keeps hostOps5 : W11 m ρ c (Proc.devRef .tc main_v63) = W10 m ρ c (Proc.devRef .tc main_v63)).trans (L10_v63 m ρ c RF)

/-! ## Boundary 12: the layer's output, and the earlier layers' outputs carried there -/

theorem L12_v78 (RF : RegionFacts) : W12 m ρ c (Proc.devRef .tc main_v78) = val_main_v127 (F := Ideal) x0 x1 x3 x4 x5 x6 x7 x8 := by
  refine (W12_arr m ρ c 4).trans ?_
  rw [RF.combine5 (V11 m ρ) c]
  exact (congr (congr (congr (congrArg Cert.HostForms.combine (L11_v76 m ρ c RF)) (L11_v63 m ρ c RF)) (L11_v27 m ρ c)) (L11_v77 m ρ c)).trans rfl

theorem L12_v61 (RF : RegionFacts) : W12 m ρ c (Proc.devRef .tc main_v61) = val_main_v88 (F := Ideal) x0 x1 x3 x4 x5 x6 :=
  (W12_of_ne m ρ c main_v61 (by decide)).trans
    ((by host_keeps hostOps5 : W11 m ρ c (Proc.devRef .tc main_v61) = W10 m ρ c (Proc.devRef .tc main_v61)).trans
      (L10_v61 m ρ c RF))

theorem L12_v44 (RF : RegionFacts) : W12 m ρ c (Proc.devRef .tc main_v44) = val_main_v49 (F := Ideal) x0 x1 x3 x4 :=
  (W12_of_ne m ρ c main_v44 (by decide)).trans
    ((by host_keeps hostOps5 : W11 m ρ c (Proc.devRef .tc main_v44) = W10 m ρ c (Proc.devRef .tc main_v44)).trans
      ((carry_6_10 m ρ c main_v44 (by host_keeps hostOps3) (by decide) (by host_keeps hostOps4) (by decide)).trans
        (L6_v44 m ρ c RF)))

end Cert.Chain

end
-- ==== Proof.ChainD.lean ====
/-
  From the third layer's output to the results.  The host counts the nodes of each graph (a scatter-add of ones over
  the graph index x2), adds up the third layer's output rows graph by graph (a scatter-add over the same index), holds
  the counts at or above one, divides the sums by them — the mean of each graph's node features —, transposes the
  classifier's weights x9 and lays its bias x10 out as a row; the last stage computes the rectified linear layer of
  the pooled features and its softmax along each row.  Each buffer is identified with the stage of the reference
  program that computes the same array; the three layers' outputs, which nothing after them writes, are carried to
  the end, as are the arguments read here.
-/
import proofs.«179573_j79680233276324_2_alg».proof.Proof.ChainC

set_option maxRecDepth 16384

noncomputable section

namespace Cert.Chain

open Cert.KernelIdeal Cert.KernelIdeal.Gen
open Idealize.ShloMosaic Idealize.ShloMosaic.TcCoe Idealize.SL.Sem Idealize.ShloMosaic.StableHlo
open Cert.ReferenceIdeal.Read (val_main_v49 val_main_v88 val_main_v127 val_main_v138 val_main_v139 val_main_v141
  val_main_v144 val_main_v155)

variable (m : (ℓ : Loc nD τ sig) → Buf (Elt Ideal) ℓ) (ρ : Dev nD → PrngReg) (c : Dev nD)

-- the argument arrays as launched
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! ## What is carried from boundary 12 on -/

/-- A buffer none of the three host stretches after the third layer writes. -/
theorem carry_12_15 (b : Ref sig .tc)
    (h13 : W13 m ρ c (Proc.devRef .tc b) = W12 m ρ c (Proc.devRef .tc b))
    (h14 : W14 m ρ c (Proc.devRef .tc b) = W13 m ρ c (Proc.devRef .tc b))
    (h15 : W15 m ρ c (Proc.devRef .tc b) = W14 m ρ c (Proc.devRef .tc b)) :
    W15 m ρ c (Proc.devRef .tc b) = W12 m ρ c (Proc.devRef .tc b) :=
  h15.trans (h14.trans h13)

/-- If it is moreover no array of the last stage, it is at the end what it was at boundary 12. -/
theorem carry_12_16 (b : Ref sig .tc)
    (h13 : W13 m ρ c (Proc.devRef .tc b) = W12 m ρ c (Proc.devRef .tc b))
    (h14 : W14 m ρ c (Proc.devRef .tc b) = W13 m ρ c (Proc.devRef .tc b))
    (h15 : W15 m ρ c (Proc.devRef .tc b) = W14 m ρ c (Proc.devRef .tc b))
    (h16 : ∀ w, Pipeline.arrRef spec6 w ≠ b) :
    W16 m ρ c (Proc.devRef .tc b) = W12 m ρ c (Proc.devRef .tc b) :=
  (W16_of_ne m ρ c b h16).trans (carry_12_15 m ρ c b h13 h14 h15)

/-- An argument that is at the end what it was at the launch, and that nothing from boundary 12 on writes, was at
    boundary 12 what it was at the launch. -/
theorem L12_arg (b : Ref sig .tc)
    (h13 : W13 m ρ c (Proc.devRef .tc b) = W12 m ρ c (Proc.devRef .tc b))
    (h14 : W14 m ρ c (Proc.devRef .tc b) = W13 m ρ c (Proc.devRef .tc b))
    (h15 : W15 m ρ c (Proc.devRef .tc b) = W14 m ρ c (Proc.devRef .tc b))
    (h16 : ∀ w, Pipeline.arrRef spec6 w ≠ b)
    (hend : W16 m ρ c (Proc.devRef .tc b) = m ((c : Thread nD τ).loc b)) :
    W12 m ρ c (Proc.devRef .tc b) = m ((c : Thread nD τ).loc b) :=
  (carry_12_16 m ρ c b h13 h14 h15 h16).symm.trans hend

theorem L12_arg2 : W12 m ρ c (Proc.devRef .tc main_arg2) = x2 :=
  L12_arg m ρ c main_arg2 (by host_keeps hostOps6) (by host_keeps hostOps6_1) (by host_keeps hostOps6_2) (by decide)
    (W16_main_arg2 m ρ c)
theorem L12_arg9 : W12 m ρ c (Proc.devRef .tc main_arg9) = x9 :=
  L12_arg m ρ c main_arg9 (by host_keeps hostOps6) (by host_keeps hostOps6_1) (by host_keeps hostOps6_2) (by decide)
    (W16_main_arg9 m ρ c)
theorem L12_arg10 : W12 m ρ c (Proc.devRef .tc main_arg10) = x10 :=
  L12_arg m ρ c main_arg10 (by host_keeps hostOps6) (by host_keeps hostOps6_1) (by host_keeps hostOps6_2) (by decide)
    (W16_main_arg10 m ρ c)

/-! ## Boundary 15: the last stage's inputs -/

/-- The mean of each graph's node features: the sums over the graph index divided by the counts held at or above
    one. -/
theorem L15_v89 (RF : RegionFacts) :
    W15 m ρ c (Proc.devRef .tc main_v89) = val_main_v138 (F := Ideal) x0 x1 x2 x3 x4 x5 x6 x7 x8 := by
  dsimp only [W15, W14, W13, hostOps6, hostOps6_1, hostOps6_2]; after_results_simp
  rw [L12_v78 m ρ c RF, L12_arg2 m ρ c]
  rfl

/-- The classifier's weights transposed. -/
theorem L15_v90 : W15 m ρ c (Proc.devRef .tc main_v90) = val_main_v139 (F := Ideal) x9 := by
  dsimp only [W15, W14, W13, hostOps6, hostOps6_1, hostOps6_2]; after_results_simp
  rw [L12_arg9 m ρ c]
  try rfl

/-- The classifier's bias, which the kernel's program reshapes to a row and the reference broadcasts to one. -/
theorem L15_v91 : W15 m ρ c (Proc.devRef .tc main_v91) = val_main_v141 (F := Ideal) x10 := by
  dsimp only [W15, W14, W13, hostOps6, hostOps6_1, hostOps6_2]; after_results_simp
  rw [L12_arg10 m ρ c]
  exact (Cert.LibRowCast.shapeCast_n_1n_eq_bcastInDim (n := 10) _ _ Cert.ReferenceIdeal.Gen.bcast_S10_S1x10_1).trans rfl

/-! ## Boundary 16: the results -/

/-- The rectified linear layer of the reference's stages is the reference's next stage: the same operations. -/
theorem head_stage :
    Cert.HostForms.head (val_main_v138 (F := Ideal) x0 x1 x2 x3 x4 x5 x6 x7 x8) (val_main_v139 (F := Ideal) x9)
        (val_main_v141 (F := Ideal) x10)
      = val_main_v144 (F := Ideal) x0 x1 x2 x3 x4 x5 x6 x7 x8 x9 x10 := rfl

/-- The last stage's linear layer, at the reference's stages. -/
theorem head_at (RF : RegionFacts) :
    Cert.HostForms.head (V15 m ρ c main_v89) (V15 m ρ c main_v90) (V15 m ρ c main_v91)
      = val_main_v144 (F := Ideal) x0 x1 x2 x3 x4 x5 x6 x7 x8 x9 x10 :=
  (congr (congr (congrArg Cert.HostForms.head (L15_v89 m ρ c RF)) (L15_v90 m ρ c)) (L15_v91 m ρ c)).trans
    (head_stage m c)

/-- The three layers' outputs: nothing after the third layer writes them. -/
theorem out0 (RF : RegionFacts) : W16 m ρ c (Proc.devRef .tc main_v44) = val_main_v49 (F := Ideal) x0 x1 x3 x4 :=
  (carry_12_16 m ρ c main_v44 (by host_keeps hostOps6) (by host_keeps hostOps6_1) (by host_keeps hostOps6_2)
    (by decide)).trans (L12_v44 m ρ c RF)

theorem out1 (RF : RegionFacts) :
    W16 m ρ c (Proc.devRef .tc main_v61) = val_main_v88 (F := Ideal) x0 x1 x3 x4 x5 x6 :=
  (carry_12_16 m ρ c main_v61 (by host_keeps hostOps6) (by host_keeps hostOps6_1) (by host_keeps hostOps6_2)
    (by decide)).trans (L12_v61 m ρ c RF)

theorem out2 (RF : RegionFacts) :
    W16 m ρ c (Proc.devRef .tc main_v78) = val_main_v127 (F := Ideal) x0 x1 x3 x4 x5 x6 x7 x8 :=
  (carry_12_16 m ρ c main_v78 (by host_keeps hostOps6) (by host_keeps hostOps6_1) (by host_keeps hostOps6_2)
    (by decide)).trans (L12_v78 m ρ c RF)

/-- The pooled features, an input array of the last stage: as it was found. -/
theorem out3 (RF : RegionFacts) :
    W16 m ρ c (Proc.devRef .tc main_v89) = val_main_v138 (F := Ideal) x0 x1 x2 x3 x4 x5 x6 x7 x8 :=
  ((W16_arr m ρ c 0).trans (((dat6 (V15 m ρ) c).arrAt_in 0 rfl _).trans (A_eq6 (V15 m ρ) c 0))).trans
    (L15_v89 m ρ c RF)

/-- The rectified linear layer of the pooled features. -/
theorem out4 (RF : RegionFacts) :
    W16 m ρ c (Proc.devRef .tc main_v92_0) = val_main_v144 (F := Ideal) x0 x1 x2 x3 x4 x5 x6 x7 x8 x9 x10 := by
  refine (W16_arr m ρ c 3).trans ?_
  rw [RF.head6 (V15 m ρ) c]
  exact head_at m ρ c RF

/-- Its softmax along each row. -/
theorem out5 (RF : RegionFacts) :
    W16 m ρ c (Proc.devRef .tc main_v92_1) = val_main_v155 (F := Ideal) x0 x1 x2 x3 x4 x5 x6 x7 x8 x9 x10 := by
  refine (W16_arr m ρ c 4).trans ?_
  rw [RF.softmax6 (V15 m ρ) c]
  exact (congrArg Cert.HostForms.softmaxRows (head_at m ρ c RF)).trans rfl

end Cert.Chain

end
-- ==== Proof.RunValue.lean ====
/-
  The idealized kernel's run with its results kept.  @main is seven pallas_calls among stretches of host operations;
  the buffer contents at every boundary are a fold from the launch memory (`Gen.W0` … `Gen.W16`).  Every weakly fair
  execution terminates, nothing faulting, with EVERY unscoped buffer of a core — the six results and the arguments among
  them — holding what the fold's last stage `Gen.W16` says.  (The frame claim keeps only the arguments of this.)
-/
import proofs.«179573_j79680233276324_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main, every unscoped buffer read off the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W16 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c b hb => h c _ (mem_uc b hb))

end Cert.KernelIdeal.RunValue

end
-- ==== Proof.Assembly.lean ====
/-
  The certificate's claims, from their ingredients.

  The three frame claims are the programs' runs with everything but the arguments dropped. The algebraic claim says
  that the idealized kernel and the idealized reference, from memories that agree on the eleven arguments, end with
  equal results. The idealized kernel's run leaves every unscoped buffer at the last stage of the fold of its
  stretches and pallas_calls over the launch memory; the reference's run leaves each result at its stage function
  of the argument arrays. So the claim reduces to six equations between arrays, `ResultsAgree`: the fold's last
  stage at each of the kernel's six results is the reference's stage function of the kernel's own argument arrays.
-/
import proofs.«179573_j79680233276324_2_alg».proof.Defs
import proofs.«179573_j79680233276324_2_alg».proof.Proof.Gen.Kernel.Frame
import proofs.«179573_j79680233276324_2_alg».proof.Proof.Gen.KernelIdeal.Frame
import proofs.«179573_j79680233276324_2_alg».proof.Proof.Gen.ReferenceIdeal.Read
import proofs.«179573_j79680233276324_2_alg».proof.Proof.Gen.Pre_finite_inputs
import proofs.«179573_j79680233276324_2_alg».proof.Proof.RunValue

noncomputable section

namespace Cert.Proof.Assembly

open Idealize.ShloMosaic Idealize.SL.Sem

/-! ## The frames -/

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run with the six results dropped. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

/-- The ideal pass rewrote nothing. -/
theorem preserves : Cert.preserves_Kernel_KernelIdeal := trivial

/-! ## The results -/

/-- The six result equations: on every core, what the idealized kernel's run leaves in each of its results (the last
    stage of the fold over the launch memory `m`) is the reference's stage function of the kernel's argument arrays
    in `m`. -/
def ResultsAgree : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.KernelIdeal.Gen.W16 m ρ c (Proc.devRef .tc Cert.KernelIdeal.main_v44)
        = Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    ∧ Cert.KernelIdeal.Gen.W16 m ρ c (Proc.devRef .tc Cert.KernelIdeal.main_v61)
        = Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    ∧ Cert.KernelIdeal.Gen.W16 m ρ c (Proc.devRef .tc Cert.KernelIdeal.main_v78)
        = Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    ∧ Cert.KernelIdeal.Gen.W16 m ρ c (Proc.devRef .tc Cert.KernelIdeal.main_v89)
        = Cert.ReferenceIdeal.Read.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    ∧ Cert.KernelIdeal.Gen.W16 m ρ c (Proc.devRef .tc Cert.KernelIdeal.main_v92_0)
        = Cert.ReferenceIdeal.Read.val_main_v144 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    ∧ Cert.KernelIdeal.Gen.W16 m ρ c (Proc.devRef .tc Cert.KernelIdeal.main_v92_1)
        = Cert.ReferenceIdeal.Read.val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- The algebraic claim from the six result equations. The witnesses are the kernel's results; the kernel's side is
    its run read at the six results and the eleven arguments, the reference's side its run with each result's stage
    function moved from the reference's arguments to the kernel's, which agree. -/
theorem algebraic_of (h : ResultsAgree) : Cert.algebraic_KernelIdeal_ReferenceIdeal := by
  intro m ρ m' ρ' _ hagree
  refine ⟨fun c => Cert.KernelIdeal.Gen.W16 m ρ c (Proc.devRef .tc Cert.KernelIdeal.main_v44),
    fun c => Cert.KernelIdeal.Gen.W16 m ρ c (Proc.devRef .tc Cert.KernelIdeal.main_v61),
    fun c => Cert.KernelIdeal.Gen.W16 m ρ c (Proc.devRef .tc Cert.KernelIdeal.main_v78),
    fun c => Cert.KernelIdeal.Gen.W16 m ρ c (Proc.devRef .tc Cert.KernelIdeal.main_v89),
    fun c => Cert.KernelIdeal.Gen.W16 m ρ c (Proc.devRef .tc Cert.KernelIdeal.main_v92_0),
    fun c => Cert.KernelIdeal.Gen.W16 m ρ c (Proc.devRef .tc Cert.KernelIdeal.main_v92_1), ?_, ?_⟩
  · exact (θ_run Cert.KernelIdeal.defs _ _).mono (fun r hr c =>
      ⟨hr c Cert.KernelIdeal.main_v44 (by decide),
        hr c Cert.KernelIdeal.main_v61 (by decide),
        hr c Cert.KernelIdeal.main_v78 (by decide),
        hr c Cert.KernelIdeal.main_v89 (by decide),
        hr c Cert.KernelIdeal.main_v92_0 (by decide),
        hr c Cert.KernelIdeal.main_v92_1 (by decide),
        (hr c Cert.KernelIdeal.main_arg0 (by decide)).trans (Cert.KernelIdeal.Gen.W16_main_arg0 m ρ c),
        (hr c Cert.KernelIdeal.main_arg1 (by decide)).trans (Cert.KernelIdeal.Gen.W16_main_arg1 m ρ c),
        (hr c Cert.KernelIdeal.main_arg2 (by decide)).trans (Cert.KernelIdeal.Gen.W16_main_arg2 m ρ c),
        (hr c Cert.KernelIdeal.main_arg3 (by decide)).trans (Cert.KernelIdeal.Gen.W16_main_arg3 m ρ c),
        (hr c Cert.KernelIdeal.main_arg4 (by decide)).trans (Cert.KernelIdeal.Gen.W16_main_arg4 m ρ c),
        (hr c Cert.KernelIdeal.main_arg5 (by decide)).trans (Cert.KernelIdeal.Gen.W16_main_arg5 m ρ c),
        (hr c Cert.KernelIdeal.main_arg6 (by decide)).trans (Cert.KernelIdeal.Gen.W16_main_arg6 m ρ c),
        (hr c Cert.KernelIdeal.main_arg7 (by decide)).trans (Cert.KernelIdeal.Gen.W16_main_arg7 m ρ c),
        (hr c Cert.KernelIdeal.main_arg8 (by decide)).trans (Cert.KernelIdeal.Gen.W16_main_arg8 m ρ c),
        (hr c Cert.KernelIdeal.main_arg9 (by decide)).trans (Cert.KernelIdeal.Gen.W16_main_arg9 m ρ c),
        (hr c Cert.KernelIdeal.main_arg10 (by decide)).trans (Cert.KernelIdeal.Gen.W16_main_arg10 m ρ c)⟩)
      (Cert.KernelIdeal.RunValue.run_all m ρ)
  · refine (θ_run Cert.ReferenceIdeal.defs _ _).mono (fun r hr c => ?_) (Cert.ReferenceIdeal.Value.run (F := Ideal) m' ρ')
    obtain ⟨a0, a1, a2, a3, a4, a5, a6, a7, a8, a9, a10⟩ := hagree c
    obtain ⟨e0, e1, e2, e3, e4, e5⟩ := h m ρ c
    obtain ⟨r0, r1, r2, r3, r4, r5, kept⟩ := hr c
    refine ⟨r0.trans ?_, r1.trans ?_, r2.trans ?_, r3.trans ?_, r4.trans ?_, r5.trans ?_, kept⟩
    · rw [Cert.ReferenceIdeal.Read.val_main_v49_eq, a0, a1, a3, a4]
      exact e0.symm
    · rw [Cert.ReferenceIdeal.Read.val_main_v88_eq, a0, a1, a3, a4, a5, a6]
      exact e1.symm
    · rw [Cert.ReferenceIdeal.Read.val_main_v127_eq, a0, a1, a3, a4, a5, a6, a7, a8]
      exact e2.symm
    · rw [Cert.ReferenceIdeal.Read.val_main_v138_eq, a0, a1, a2, a3, a4, a5, a6, a7, a8]
      exact e3.symm
    · rw [Cert.ReferenceIdeal.Read.val_main_v144_eq, a0, a1, a2, a3, a4, a5, a6, a7, a8, a9, a10]
      exact e4.symm
    · rw [Cert.ReferenceIdeal.Read.val_main_v155_eq, a0, a1, a2, a3, a4, a5, a6, a7, a8, a9, a10]
      exact e5.symm

end Cert.Proof.Assembly

end
-- ==== Proof.lean ====
/-
  A three-layer graph convolution network with mean pooling and a softmax classifier, as seven pallas_calls among
  plain host operations, against the same network written with host operations only.

  Each layer is  h ↦ max (A(h·Wᵀ) + (h·Wᵀ) * d² + b, 0),  where A gathers the rows of h·Wᵀ at the edges' sources,
  scales them by the edge weights d[src]·d[dst] and scatter-adds them at the destinations, and d is the inverse square
  root of the in-degree plus one.  The kernel's program computes h·Wᵀ block of rows by block of rows on the matrix unit
  (the operands narrowed to bf16, which on the extended reals changes nothing) and the closing stage block by block on
  the vector unit; the gathers, the scatter-adds, the degrees, the pooling quotient are the same host operations in
  both programs.  The classifier max (p·Wfᵀ + bf, 0) and its softmax exp (f - rowmax f) / rowsum (…) are one pallas_call
  over whole arrays.  On the extended reals the two programs therefore compute, stage by stage, the SAME operations of
  the same arrays, in the same order: no law of arithmetic is needed, and the precondition is never opened.  What is
  proved is that the blocks tile the arrays, that a matrix-unit product into a zero accumulator is the host's
  product, that the vector unit's broadcasts and reductions read the entries the host's do, and that each buffer of
  the kernel's program holds the array of the reference's corresponding stage.

    * RunValue        the idealized kernel's run with every buffer kept (the fold of stretches and pallas_calls)
    * RegionProduct / RegionCombine / RegionHead
                      what each pallas_call leaves in its output array, as the host's spelling of the stage (HostForms)
    * ChainA … ChainD  the fold, boundary by boundary: each live buffer is a stage of the reference (Carry has the tools)
    * Assembly        the five claims from the two runs and the six result equations
-/
import proofs.«179573_j79680233276324_2_alg».proof.Defs
import proofs.«179573_j79680233276324_2_alg».proof.Proof.Gen.Kernel
import proofs.«179573_j79680233276324_2_alg».proof.Proof.Gen.KernelIdeal
import proofs.«179573_j79680233276324_2_alg».proof.Proof.Gen.ReferenceIdeal
import proofs.«179573_j79680233276324_2_alg».proof.Proof.Gen.Pre_finite_inputs
import proofs.«179573_j79680233276324_2_alg».proof.Proof.RegionProduct
import proofs.«179573_j79680233276324_2_alg».proof.Proof.RegionCombine
import proofs.«179573_j79680233276324_2_alg».proof.Proof.RegionHead
import proofs.«179573_j79680233276324_2_alg».proof.Proof.ChainD
import proofs.«179573_j79680233276324_2_alg».proof.Proof.Assembly

noncomputable section

namespace Cert.Proof

open Idealize.ShloMosaic Idealize.SL.Sem

/-- What each pallas_call leaves in its output arrays. -/
theorem regionFacts : Cert.Chain.RegionFacts where
  product0 := Cert.KernelIdeal.RegionValue.product0
  product2 := Cert.KernelIdeal.RegionValue.product2
  product4 := Cert.KernelIdeal.RegionValue.product4
  combine1 := Cert.KernelIdeal.RegionValue.combine1
  combine3 := Cert.KernelIdeal.RegionValue.combine3
  combine5 := Cert.KernelIdeal.RegionValue.combine5
  head6 := Cert.KernelIdeal.RegionValue.head6
  softmax6 := Cert.KernelIdeal.RegionValue.softmax6

/-- The kernel's six results are the reference's six stage functions of the kernel's arguments. -/
theorem resultsAgree : Cert.Proof.Assembly.ResultsAgree := fun m ρ c =>
  ⟨Cert.Chain.out0 m ρ c regionFacts, Cert.Chain.out1 m ρ c regionFacts, Cert.Chain.out2 m ρ c regionFacts,
   Cert.Chain.out3 m ρ c regionFacts, Cert.Chain.out4 m ρ c regionFacts, Cert.Chain.out5 m ρ c regionFacts⟩

theorem claim : Cert.Claim :=
  ⟨Cert.Kernel.Gen.facts, Cert.KernelIdeal.Gen.facts, Cert.ReferenceIdeal.Gen.facts, Cert.Pre_finite_inputs.Gen.facts,
   Cert.Proof.Assembly.frame_kernel, Cert.Proof.Assembly.frame_kernelIdeal, Cert.Proof.Assembly.frame_referenceIdeal,
   Cert.Proof.Assembly.preserves, Cert.Proof.Assembly.algebraic_of resultsAgree⟩

end Cert.Proof

end
